-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S256x1024 : Shape := ⟨2, ![256, 1024]⟩
abbrev S256x3072 : Shape := ⟨2, ![256, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩

abbrev nBuf : Space → Nat
  | .hbm => 30
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S3072x1024, .bf16⟩
  | .hbm, ⟨6, _⟩ => ⟨S1024x1024, .bf16⟩
  | .hbm, ⟨7, _⟩ => ⟨S4096x1024, .f32⟩
  | .hbm, ⟨8, _⟩ => ⟨S1x3072, .f32⟩
  | .hbm, ⟨9, _⟩ => ⟨S4096x3072, .bf16⟩
  | .hbm, ⟨10, _⟩ => ⟨S2x2048x3x16x64, .bf16⟩
  | .hbm, ⟨11, _⟩ => ⟨S2x2048x1x16x64, .bf16⟩
  | .hbm, ⟨12, _⟩ => ⟨S2x2048x16x64, .bf16⟩
  | .hbm, ⟨13, _⟩ => ⟨S2x16x2048x64, .bf16⟩
  | .hbm, ⟨14, _⟩ => ⟨S32x2048x64, .bf16⟩
  | .hbm, ⟨15, _⟩ => ⟨S2x2048x1x16x64, .bf16⟩
  | .hbm, ⟨16, _⟩ => ⟨S2x2048x16x64, .bf16⟩
  | .hbm, ⟨17, _⟩ => ⟨S2x16x2048x64, .bf16⟩
  | .hbm, ⟨18, _⟩ => ⟨S32x2048x64, .bf16⟩
  | .hbm, ⟨19, _⟩ => ⟨S2x2048x1x16x64, .bf16⟩
  | .hbm, ⟨20, _⟩ => ⟨S2x2048x16x64, .bf16⟩
  | .hbm, ⟨21, _⟩ => ⟨S2x16x2048x64, .bf16⟩
  | .hbm, ⟨22, _⟩ => ⟨S32x2048x64, .bf16⟩
  | .hbm, ⟨23, _⟩ => ⟨S32x2048x64, .bf16⟩
  | .hbm, ⟨24, _⟩ => ⟨S2x16x2048x64, .bf16⟩
  | .hbm, ⟨25, _⟩ => ⟨S2x2048x16x64, .bf16⟩
  | .hbm, ⟨26, _⟩ => ⟨S4096x1024, .bf16⟩
  | .hbm, ⟨27, _⟩ => ⟨S1x1024, .f32⟩
  | .hbm, ⟨28, _⟩ => ⟨S4096x1024, .f32⟩
  | .hbm, ⟨29, _⟩ => ⟨S2x2048x1024, .f32⟩
  | .local _ .vmem, ⟨0, _⟩ => ⟨S256x1024, .f32⟩
  | .local _ .vmem, ⟨1, _⟩ => ⟨S256x1024, .f32⟩
  | .local _ .vmem, ⟨2, _⟩ => ⟨S3072x1024, .bf16⟩
  | .local _ .vmem, ⟨3, _⟩ => ⟨S1x3072, .f32⟩
  | .local _ .vmem, ⟨4, _⟩ => ⟨S256x3072, .bf16⟩
  | .local _ .vmem, ⟨5, _⟩ => ⟨S256x3072, .bf16⟩
  | .local _ .vmem, ⟨6, _⟩ => ⟨S1x256x64, .bf16⟩
  | .local _ .vmem, ⟨7, _⟩ => ⟨S1x256x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x256x64, .bf16⟩
  | .local _ .vmem, ⟨13, _⟩ => ⟨S1x256x64, .bf16⟩
  | .local _ .vmem, ⟨14, _⟩ => ⟨S256x1024, .bf16⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S2x2048x1024_S4096x1024 : S2x2048x1024.ShapeCasts S4096x1024
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  shapeCasts_S4096x3072_S2x2048x3x16x64 : S4096x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  shapeCasts_S256x64_S1x256x64 : S256x64.ShapeCasts S1x256x64
  packedbf16_S1x256x64_S1x256x64_0_0_0 : (Rect.unit (s := S1x256x64) ![0, 0, 0] S1x256x64.size inb_S1x256x64_S1x256x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S4096x1024_S2x2048x1024 : S4096x1024.ShapeCasts S2x2048x1024
  dot_S256x1024_S3072x1024_S256x3072_1_1_0_0_n_n_wf : DotDims.WF S256x1024 S3072x1024 S256x3072 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S4096x3072.size a
  hwx0_3 : ∀ i : grid0.Coords, EltTy.bits .bf16 = 32 ∨ (Rect.block (s := S4096x3072) S256x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S32x2048x64.size a
  hwx1_0 : ∀ i : grid1.Coords, EltTy.bits .bf16 = 32 ∨ (Rect.block (s := S32x2048x64) S1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x64.size a ≤ S32x2048x64.size a
  hwx1_3 : ∀ i : grid1.Coords, EltTy.bits .bf16 = 32 ∨ (Rect.block (s := S32x2048x64) S1x256x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .bf16 = 32 ∨ (Rect.block (s := S4096x1024) S256x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S4096x1024.size a
  hwx2_3 : ∀ i : grid2.Coords, EltTy.bits .f32 = 32 ∨ (Rect.block (s := S4096x1024) S256x1024.size (cc2_transform_3 i) (hinb2_3 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v2) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x3x16x64, .f32⟩
  | .hbm, ⟨10, _⟩ => ⟨S2x2048x1x16x64, .f32⟩
  | .hbm, ⟨11, _⟩ => ⟨S2x2048x16x64, .f32⟩
  | .hbm, ⟨12, _⟩ => ⟨S2x16x2048x64, .f32⟩
  | .hbm, ⟨13, _⟩ => ⟨S2x2048x1x16x64, .f32⟩
  | .hbm, ⟨14, _⟩ => ⟨S2x2048x16x64, .f32⟩
  | .hbm, ⟨15, _⟩ => ⟨S2x16x2048x64, .f32⟩
  | .hbm, ⟨16, _⟩ => ⟨S2x2048x1x16x64, .f32⟩
  | .hbm, ⟨17, _⟩ => ⟨S2x2048x16x64, .f32⟩
  | .hbm, ⟨18, _⟩ => ⟨S2x16x2048x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S_, .f32⟩
  | .hbm, ⟨29, _⟩ => ⟨S2x16x2048, .f32⟩
  | .hbm, ⟨30, _⟩ => ⟨S2x16x2048, .f32⟩
  | .hbm, ⟨31, _⟩ => ⟨S2x16x2048x1, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x64, .f32⟩
  | .hbm, ⟨41, _⟩ => ⟨S2x2048x16x64, .f32⟩
  | .hbm, ⟨42, _⟩ => ⟨S2x2048x1024, .f32⟩
  | .hbm, ⟨43, _⟩ => ⟨S2x2048x1024, .f32⟩
  | .hbm, ⟨44, _⟩ => ⟨S1x1x1024, .f32⟩
  | .hbm, ⟨45, _⟩ => ⟨S2x2048x1024, .f32⟩
  | .hbm, ⟨46, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x3x16x64 : S2x2048x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KernelRun.lean ====
/-
  The kernel program's run with its result kept: every weakly fair execution of the three regions and the host
  operations between them terminates without fault, the result buffer ends at the last boundary's contents (the fold of
  the host operations and the regions' write-backs from the launch memory), and the five arguments end as launched.
-/
import proofs.«143096_j84997402788178_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over @main's seven segments, the last thread state read against the final state; the result
    buffer is read at the last boundary's contents, each argument walked back to the launch memory. -/
theorem run_result : θ_run defs (onTc (τ := τ) (main (F := F))) ⟨m, fun _ => 0, ρ⟩ (fun r => ∀ c : Dev nD,
      r.2.mem ((c.tc : Thread nD τ).loc main_v24) = W7 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v24 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Run

end
-- ==== Proof.KernelProducts.lean ====
/-
  The four matrix products of the three kernel bodies, each read at one entry of its result, on the extended reals:
  into a zero accumulator the entry (p, q) is the plain sum over the contracted coordinate of the products of the two
  operands' entries — row p of the left operand against row q of the right one for the three products of the form
  A·Bᵀ (both projections and query·keyᵀ), against column q for the product of the form A·B (weights·values).
-/
import proofs.«143096_j84997402788178_2_alg».proof.Proof.Gen.KernelIdeal
import Idealize.ShloMosaic.Lib.ValueIdx
import Idealize.ShloMosaic.PureOps.Ideal.Laws

noncomputable section

open scoped BigOperators

namespace Cert.KernelIdeal.Entry

open Cert.KernelIdeal Idealize.ShloMosaic Idealize.ShloMosaic.ValueIdx

private theorem proj_in_apply_l0 (j : S256x3072.Idx) (c : dot_S256x1024_S3072x1024_S256x3072_1_1_0_0_n_n.contr.Idx) : (dot_S256x1024_S3072x1024_S256x3072_1_1_0_0_n_n.lhsIdx j c 0).val = (j 0).val := by
  unfold DotDims.lhsIdx
  rw [dif_neg (show ¬(0 : Fin S256x1024.rank) ∈ dot_S256x1024_S3072x1024_S256x3072_1_1_0_0_n_n.lhsBatch by decide), dif_pos (show (0 : Fin S256x1024.rank) ∈ dot_S256x1024_S3072x1024_S256x3072_1_1_0_0_n_n.lhsNonContracting by decide)]
  rfl
private theorem proj_in_apply_l1 (j : S256x3072.Idx) (c : dot_S256x1024_S3072x1024_S256x3072_1_1_0_0_n_n.contr.Idx) : (dot_S256x1024_S3072x1024_S256x3072_1_1_0_0_n_n.lhsIdx j c 1).val = (c ⟨0, by decide⟩).val :=
  dot_S256x1024_S3072x1024_S256x3072_1_1_0_0_n_n.lhsIdx_val_of_single rfl j c
private theorem proj_in_apply_rn (j : S256x3072.Idx) (c : dot_S256x1024_S3072x1024_S256x3072_1_1_0_0_n_n.contr.Idx) : (dot_S256x1024_S3072x1024_S256x3072_1_1_0_0_n_n.rhsIdx j c 0).val = (j 1).val := by
  unfold DotDims.rhsIdx
  rw [dif_neg (show ¬(0 : Fin S3072x1024.rank) ∈ dot_S256x1024_S3072x1024_S256x3072_1_1_0_0_n_n.rhsBatch by decide), dif_pos (show (0 : Fin S3072x1024.rank) ∈ dot_S256x1024_S3072x1024_S256x3072_1_1_0_0_n_n.rhsNonContracting by decide)]
  rfl
private theorem proj_in_apply_rc (j : S256x3072.Idx) (c : dot_S256x1024_S3072x1024_S256x3072_1_1_0_0_n_n.contr.Idx) : (dot_S256x1024_S3072x1024_S256x3072_1_1_0_0_n_n.rhsIdx j c 1).val = (c ⟨0, by decide⟩).val :=
  dot_S256x1024_S3072x1024_S256x3072_1_1_0_0_n_n.rhsIdx_val_of_single rfl j c

theorem proj_in_apply {φ₁ φ₂ : FTy} (L : FVec Ideal S256x1024 φ₁) (R : FVec Ideal S3072x1024 φ₂) (p : Fin 256) (q : Fin 3072) :
    matmul dot_S256x1024_S3072x1024_S256x3072_1_1_0_0_n_n none L R (constant S256x3072 .f32 0x00000000#32) (ix2 p q)
      = ∑ k : Fin 1024, L (ix2 p k) * R (ix2 q k) := by
  simp only [matmul]
  rw [Ideal.matmul_constant_zero_apply, ← Equiv.sum_comp (contrEquiv1 dot_S256x1024_S3072x1024_S256x3072_1_1_0_0_n_n 1024 rfl rfl).symm]
  refine Finset.sum_congr rfl fun k _ => ?_
  have hk := contrEquiv1_symm_val dot_S256x1024_S3072x1024_S256x3072_1_1_0_0_n_n 1024 rfl rfl k
  have el : dot_S256x1024_S3072x1024_S256x3072_1_1_0_0_n_n.lhsIdx (ix2 p q) ((contrEquiv1 dot_S256x1024_S3072x1024_S256x3072_1_1_0_0_n_n 1024 rfl rfl).symm k) = ix2 p k := funext fun ax => Fin.ext (by
    match ax with
    | ⟨0, _⟩ => exact proj_in_apply_l0 _ _
    | ⟨1, _⟩ => exact (proj_in_apply_l1 _ _).trans hk)
  have er : dot_S256x1024_S3072x1024_S256x3072_1_1_0_0_n_n.rhsIdx (ix2 p q) ((contrEquiv1 dot_S256x1024_S3072x1024_S256x3072_1_1_0_0_n_n 1024 rfl rfl).symm k) = ix2 q k := funext fun ax => Fin.ext (by
    match ax with
    | ⟨0, _⟩ => exact proj_in_apply_rn _ _
    | ⟨1, _⟩ => exact (proj_in_apply_rc _ _).trans hk)
  rw [el, er]

private theorem query_key_apply_l0 (j : S256x2048.Idx) (c : dot_S256x64_S2048x64_S256x2048_1_1_0_0_n_n.contr.Idx) : (dot_S256x64_S2048x64_S256x2048_1_1_0_0_n_n.lhsIdx j c 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
private theorem query_key_apply_l1 (j : S256x2048.Idx) (c : dot_S256x64_S2048x64_S256x2048_1_1_0_0_n_n.contr.Idx) : (dot_S256x64_S2048x64_S256x2048_1_1_0_0_n_n.lhsIdx j c 1).val = (c ⟨0, by decide⟩).val :=
  dot_S256x64_S2048x64_S256x2048_1_1_0_0_n_n.lhsIdx_val_of_single rfl j c
private theorem query_key_apply_rn (j : S256x2048.Idx) (c : dot_S256x64_S2048x64_S256x2048_1_1_0_0_n_n.contr.Idx) : (dot_S256x64_S2048x64_S256x2048_1_1_0_0_n_n.rhsIdx j c 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
private theorem query_key_apply_rc (j : S256x2048.Idx) (c : dot_S256x64_S2048x64_S256x2048_1_1_0_0_n_n.contr.Idx) : (dot_S256x64_S2048x64_S256x2048_1_1_0_0_n_n.rhsIdx j c 1).val = (c ⟨0, by decide⟩).val :=
  dot_S256x64_S2048x64_S256x2048_1_1_0_0_n_n.rhsIdx_val_of_single rfl j c

theorem query_key_apply {φ₁ φ₂ : FTy} (L : FVec Ideal S256x64 φ₁) (R : FVec Ideal S2048x64 φ₂) (p : Fin 256) (q : Fin 2048) :
    matmul dot_S256x64_S2048x64_S256x2048_1_1_0_0_n_n none L R (constant S256x2048 .f32 0x00000000#32) (ix2 p q)
      = ∑ k : Fin 64, L (ix2 p k) * R (ix2 q k) := by
  simp only [matmul]
  rw [Ideal.matmul_constant_zero_apply, ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 p q) ((contrEquiv1 dot_S256x64_S2048x64_S256x2048_1_1_0_0_n_n 64 rfl rfl).symm k) = ix2 p k := funext fun ax => Fin.ext (by
    match ax with
    | ⟨0, _⟩ => exact query_key_apply_l0 _ _
    | ⟨1, _⟩ => exact (query_key_apply_l1 _ _).trans hk)
  have er : dot_S256x64_S2048x64_S256x2048_1_1_0_0_n_n.rhsIdx (ix2 p q) ((contrEquiv1 dot_S256x64_S2048x64_S256x2048_1_1_0_0_n_n 64 rfl rfl).symm k) = ix2 q k := funext fun ax => Fin.ext (by
    match ax with
    | ⟨0, _⟩ => exact query_key_apply_rn _ _
    | ⟨1, _⟩ => exact (query_key_apply_rc _ _).trans hk)
  rw [el, er]

private theorem weight_value_apply_l0 (j : S256x64.Idx) (c : dot_S256x2048_S2048x64_S256x64_1_0_0_1_n_n.contr.Idx) : (dot_S256x2048_S2048x64_S256x64_1_0_0_1_n_n.lhsIdx j c 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
private theorem weight_value_apply_l1 (j : S256x64.Idx) (c : dot_S256x2048_S2048x64_S256x64_1_0_0_1_n_n.contr.Idx) : (dot_S256x2048_S2048x64_S256x64_1_0_0_1_n_n.lhsIdx j c 1).val = (c ⟨0, by decide⟩).val :=
  dot_S256x2048_S2048x64_S256x64_1_0_0_1_n_n.lhsIdx_val_of_single rfl j c
private theorem weight_value_apply_rn (j : S256x64.Idx) (c : dot_S256x2048_S2048x64_S256x64_1_0_0_1_n_n.contr.Idx) : (dot_S256x2048_S2048x64_S256x64_1_0_0_1_n_n.rhsIdx j c 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl
private theorem weight_value_apply_rc (j : S256x64.Idx) (c : dot_S256x2048_S2048x64_S256x64_1_0_0_1_n_n.contr.Idx) : (dot_S256x2048_S2048x64_S256x64_1_0_0_1_n_n.rhsIdx j c 0).val = (c ⟨0, by decide⟩).val :=
  dot_S256x2048_S2048x64_S256x64_1_0_0_1_n_n.rhsIdx_val_of_single rfl j c

theorem weight_value_apply {φ₁ φ₂ : FTy} (L : FVec Ideal S256x2048 φ₁) (R : FVec Ideal S2048x64 φ₂) (p : Fin 256) (q : Fin 64) :
    matmul dot_S256x2048_S2048x64_S256x64_1_0_0_1_n_n none L R (constant S256x64 .f32 0x00000000#32) (ix2 p q)
      = ∑ k : Fin 2048, L (ix2 p k) * R (ix2 k q) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 p q) ((contrEquiv1 dot_S256x2048_S2048x64_S256x64_1_0_0_1_n_n 2048 rfl rfl).symm k) = ix2 p k := funext fun ax => Fin.ext (by
    match ax with
    | ⟨0, _⟩ => exact weight_value_apply_l0 _ _
    | ⟨1, _⟩ => exact (weight_value_apply_l1 _ _).trans hk)
  have er : dot_S256x2048_S2048x64_S256x64_1_0_0_1_n_n.rhsIdx (ix2 p q) ((contrEquiv1 dot_S256x2048_S2048x64_S256x64_1_0_0_1_n_n 2048 rfl rfl).symm k) = ix2 k q := funext fun ax => Fin.ext (by
    match ax with
    | ⟨1, _⟩ => exact weight_value_apply_rn _ _
    | ⟨0, _⟩ => exact (weight_value_apply_rc _ _).trans hk)
  rw [el, er]

private theorem proj_out_apply_l0 (j : S256x1024.Idx) (c : dot_S256x1024_S1024x1024_S256x1024_1_1_0_0_n_n.contr.Idx) : (dot_S256x1024_S1024x1024_S256x1024_1_1_0_0_n_n.lhsIdx j c 0).val = (j 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
private theorem proj_out_apply_l1 (j : S256x1024.Idx) (c : dot_S256x1024_S1024x1024_S256x1024_1_1_0_0_n_n.contr.Idx) : (dot_S256x1024_S1024x1024_S256x1024_1_1_0_0_n_n.lhsIdx j c 1).val = (c ⟨0, by decide⟩).val :=
  dot_S256x1024_S1024x1024_S256x1024_1_1_0_0_n_n.lhsIdx_val_of_single rfl j c
private theorem proj_out_apply_rn (j : S256x1024.Idx) (c : dot_S256x1024_S1024x1024_S256x1024_1_1_0_0_n_n.contr.Idx) : (dot_S256x1024_S1024x1024_S256x1024_1_1_0_0_n_n.rhsIdx j c 0).val = (j 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
private theorem proj_out_apply_rc (j : S256x1024.Idx) (c : dot_S256x1024_S1024x1024_S256x1024_1_1_0_0_n_n.contr.Idx) : (dot_S256x1024_S1024x1024_S256x1024_1_1_0_0_n_n.rhsIdx j c 1).val = (c ⟨0, by decide⟩).val :=
  dot_S256x1024_S1024x1024_S256x1024_1_1_0_0_n_n.rhsIdx_val_of_single rfl j c

theorem proj_out_apply {φ₁ φ₂ : FTy} (L : FVec Ideal S256x1024 φ₁) (R : FVec Ideal S1024x1024 φ₂) (p : Fin 256) (q : Fin 1024) :
    matmul dot_S256x1024_S1024x1024_S256x1024_1_1_0_0_n_n none L R (constant S256x1024 .f32 0x00000000#32) (ix2 p q)
      = ∑ k : Fin 1024, L (ix2 p k) * R (ix2 q k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k := funext fun ax => Fin.ext (by
    match ax with
    | ⟨0, _⟩ => exact proj_out_apply_l0 _ _
    | ⟨1, _⟩ => exact (proj_out_apply_l1 _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k := funext fun ax => Fin.ext (by
    match ax with
    | ⟨0, _⟩ => exact proj_out_apply_rn _ _
    | ⟨1, _⟩ => exact (proj_out_apply_rc _ _).trans hk)
  rw [el, er]

end Cert.KernelIdeal.Entry

end
-- ==== Proof.KernelEntries.lean ====
/-
  The three kernel bodies' stored values read at one entry, on the extended reals (a change of float format is the
  identity there, so the casts between the 32-bit and the 16-bit formats disappear).

  Both projection bodies: entry (p, q) of the stored block is the product of row p of the activations block with row q
  of the weight matrix, plus entry q of the bias row.
-/
import proofs.«143096_j84997402788178_2_alg».proof.Proof.Gen.KernelIdeal.Skeleton
import proofs.«143096_j84997402788178_2_alg».proof.Proof.KernelProducts
import Idealize.ShloMosaic.Lib.ValueLayout
import Idealize.ShloMosaic.Lib.Pipeline.Value

noncomputable section

open scoped BigOperators

namespace Cert.KernelIdeal.Entry

open Cert.KernelIdeal Cert.KernelIdeal.Gen Idealize.ShloMosaic Idealize.ShloMosaic.ValueIdx

/-- The input projection's block: x·wᵀ + b at (p, q). -/
theorem proj_in_entry (v0 : Vec Ideal S256x1024 .f32) (v3 : Vec Ideal S3072x1024 .bf16) (v6 : Vec Ideal S1x3072 .f32)
    (p : Fin 256) (q : Fin 3072) :
    k0_pay1 v0 v3 v6 (ix2 p q) = (∑ k : Fin 1024, v0 (ix2 p k) * v3 (ix2 q k)) + v6 (ix2 (0 : Fin 1) q) := by
  unfold k0_pay1
  rw [truncf_apply, addf_apply, proj_in_apply, broadcastTo_1b_ab_apply]
  simp only [truncf_apply, shapeCast_self]

/-- The output projection's block: a·woᵀ + bo at (p, q). -/
theorem proj_out_entry (v0 : Vec Ideal S256x1024 .bf16) (v2 : Vec Ideal S1024x1024 .bf16) (v5 : Vec Ideal S1x1024 .f32)
    (p : Fin 256) (q : Fin 1024) :
    k2_pay1 v0 v2 v5 (ix2 p q) = (∑ k : Fin 1024, v0 (ix2 p k) * v2 (ix2 q k)) + v5 (ix2 (0 : Fin 1) q) := by
  unfold k2_pay1
  rw [addf_apply, proj_out_apply, broadcastTo_1b_ab_apply]
  simp only [shapeCast_self]

end Cert.KernelIdeal.Entry

end
-- ==== Proof.KernelBlocksIn.lean ====
/-
  The input projection's region: 16 grid points, point t holding rows 256·t … 256·t + 255 of the 4096 token rows, the
  whole weight matrix and the whole bias row, and writing back the same rows of the result. So the result array ends
  as ONE function of the three arrays the region finds: entry (r, o) is row r of the activations against row o of the
  weights, plus the bias at o.
-/
import proofs.«143096_j84997402788178_2_alg».proof.Proof.Gen.KernelIdeal.Frame
import proofs.«143096_j84997402788178_2_alg».proof.Proof.KernelEntries
import Idealize.ShloMosaic.Lib.Pipeline.Value

set_option maxRecDepth 16384

noncomputable section

open scoped BigOperators

namespace Cert.KernelIdeal.Blocks

open Cert.KernelIdeal Cert.KernelIdeal.Gen Cert.KernelIdeal.Entry Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Rows of X against rows of W plus a bias row: the array x·wᵀ + b, entry by entry. -/
def affine {R O : ℕ} (X : (⟨2, ![R, 1024]⟩ : Shape).Idx → EReal) (W : (⟨2, ![O, 1024]⟩ : Shape).Idx → EReal)
    (B : (⟨2, ![1, O]⟩ : Shape).Idx → EReal) : (⟨2, ![R, O]⟩ : Shape).Idx → EReal :=
  fun i => (∑ k : Fin 1024, X (ix2 (⟨(i 0).val, (i 0).isLt⟩ : Fin R) k) * W (ix2 (⟨(i 1).val, (i 1).isLt⟩ : Fin O) k))
    + B (ix2 (0 : Fin 1) (⟨(i 1).val, (i 1).isLt⟩ : Fin O))

/-- The printed index maps over the 16 points: window 0 and the output move with the point along the rows; the weights
    and the bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One point of a row-blocked projection, over plain arrays: a block x0 that is rows r0 … r0 + 255 of X, against the
    whole weights W and bias B, stores at (y0, y1) the array x·wᵀ + b at (r0 + y0, y1). -/
theorem affine_point {O : ℕ} (pay : (⟨2, ![256, O]⟩ : Shape).Idx → EReal)
    (x0 : (⟨2, ![256, 1024]⟩ : Shape).Idx → EReal) (X : (⟨2, ![4096, 1024]⟩ : Shape).Idx → EReal)
    (W : (⟨2, ![O, 1024]⟩ : Shape).Idx → EReal) (B : (⟨2, ![1, O]⟩ : Shape).Idx → EReal) (r0 : ℕ)
    (hpay : ∀ (p : Fin 256) (q : Fin O), pay (ix2 p q) = (∑ k : Fin 1024, x0 (ix2 p k) * W (ix2 q k)) + B (ix2 (0 : Fin 1) q))
    (h0 : ∀ (y : (⟨2, ![256, 1024]⟩ : Shape).Idx) (k : (⟨2, ![4096, 1024]⟩ : Shape).Idx),
      (k 0).val = r0 + (y 0).val → (k 1).val = (y 1).val → x0 y = X k)
    (y : (⟨2, ![256, O]⟩ : Shape).Idx) (i : (⟨2, ![4096, O]⟩ : Shape).Idx)
    (hi0 : (i 0).val = r0 + (y 0).val) (hi1 : (i 1).val = (y 1).val) :
    pay y = affine X W B i := by
  obtain ⟨p, q, rfl⟩ : ∃ (p : Fin 256) (q : Fin O), y = ix2 p q := ⟨y 0, y 1, eq_ix2 y⟩
  rw [hpay]
  unfold affine
  have eq : (⟨(i 1).val, (i 1).isLt⟩ : Fin O) = q := Fin.ext hi1
  rw [eq]
  refine congrArg (· + B (ix2 (0 : Fin 1) q)) (Finset.sum_congr rfl fun k _ => ?_)
  rw [h0 (ix2 p k) (ix2 (⟨(i 0).val, (i 0).isLt⟩ : Fin 4096) k) hi0 rfl]

/-- Window 0's block at point t is rows 256·t … of the activations. -/
theorem iblk0_0_apply (c : Dev nD) (t : Fin cfg0.N) (y : S256x1024.Idx) (k : S4096x1024.Idx)
    (hk0 : (k 0).val = 256 * t.val + (y 0).val) (hk1 : (k 1).val = (y 1).val) :
    (iblk0 V c 0 t : Vec Ideal S256x1024 .f32) y = (V c main_v2 : S4096x1024.Idx → EReal) k := by
  obtain ⟨e0, e1, -⟩ := idx0 t
  unfold iblk0
  rw [View.read_apply]
  show V c main_v2 _ = V c main_v2 _
  congr 1
  funext a; apply Fin.ext
  match a with
  | ⟨0, _⟩ => show win0_0.index t 0 * 256 + 1 * (y 0).val = (k 0).val; rw [e0, hk0]; omega
  | ⟨1, _⟩ => show win0_0.index t 1 * 1024 + 1 * (y 1).val = (k 1).val; rw [e1, hk1]; omega

/-- Window 1's block at every point is the whole weight matrix. -/
theorem iblk0_1_eq (c : Dev nD) (t : Fin cfg0.N) : (iblk0 V c 1 t : Vec Ideal S3072x1024 .bf16) = V c main_v0 := by
  obtain ⟨-, -, e2, e3, -⟩ := idx0 t
  funext y
  unfold iblk0
  rw [View.read_apply]
  show V c main_v0 _ = V c main_v0 y
  congr 1
  funext a; apply Fin.ext
  match a with
  | ⟨0, _⟩ => show win0_1.index t 0 * 3072 + 1 * (y 0).val = (y 0).val; rw [e2]; omega
  | ⟨1, _⟩ => show win0_1.index t 1 * 1024 + 1 * (y 1).val = (y 1).val; rw [e3]; omega

/-- Window 2's block at every point is the whole bias row. -/
theorem iblk0_2_eq (c : Dev nD) (t : Fin cfg0.N) : (iblk0 V c 2 t : Vec Ideal S1x3072 .f32) = V c main_v3 := by
  obtain ⟨-, -, -, -, e4, e5, -⟩ := idx0 t
  funext y
  unfold iblk0
  rw [View.read_apply]
  show V c main_v3 _ = V c main_v3 y
  congr 1
  funext a; apply Fin.ext
  match a with
  | ⟨0, _⟩ => show win0_2.index t 0 * 1 + 1 * (y 0).val = (y 0).val; rw [e4]; omega
  | ⟨1, _⟩ => show win0_2.index t 1 * 3072 + 1 * (y 1).val = (y 1).val; rw [e5]; omega

/-- What point t writes back is block t of the projection of the arrays the region finds. -/
theorem flushed0 (c : Dev nD) (t : Fin cfg0.N) :
    (dat0 V c).flushed 3 t = ((cfg0.win 3).blk t).view.read (Elt Ideal) (affine (V c main_v2) (V c main_v0) (V c main_v3)) := by
  show (cfg0.win 3).cut (grid0.coords t) ((dat0 V c).after 3 t) = _
  rw [after0_3]
  unfold out0_3
  rw [View.canon_unit_zero hz2]
  simp only [View.ld_unit_zero (S := S256x1024) hz2, View.ld_unit_zero (S := S3072x1024) hz2, View.ld_unit_zero (S := S1x3072) hz2]
  rw [iblk0_1_eq V c t, iblk0_2_eq V c t]
  obtain ⟨-, -, -, -, -, -, e6, e7⟩ := idx0 t
  funext j
  show k0_pay1 (iblk0 V c 0 t) (V c main_v0) (V c main_v3) j
    = affine (V c main_v2) (V c main_v0) (V c main_v3) (((cfg0.win 3).blk t).view.emb j)
  refine affine_point (k0_pay1 (iblk0 V c 0 t) (V c main_v0) (V c main_v3)) (iblk0 V c 0 t) (V c main_v2) (V c main_v0) (V c main_v3)
    (256 * t.val) (fun p q => proj_in_entry (iblk0 V c 0 t) (V c main_v0) (V c main_v3) p q)
    (fun y k hk0 hk1 => iblk0_0_apply V c t y k hk0 hk1) j (((cfg0.win 3).blk t).view.emb j) ?_ ?_
  · show win0_3.index t 0 * 256 + 1 * (j 0).val = 256 * t.val + (j 0).val; rw [e6]; omega
  · show win0_3.index t 1 * 3072 + 1 * (j 1).val = (j 1).val; rw [e7]; omega

/-- An index of the result array lies in point t's block iff each coordinate is in the block's range. -/
theorem mem_blk0 (t : Fin cfg0.N) (i : S4096x3072.Idx) :
    i ∈ ((cfg0.win 3).blk t).view.set ↔ ∀ a : Fin 2, win0_3.index t a * S256x3072.size a ≤ (i a).val ∧ (i a).val < win0_3.index t a * S256x3072.size a + S256x3072.size a := by
  show i ∈ ((View.whole main_v4).slice (win0_3.rect t)).set ↔ _
  rw [View.set_slice_whole, Rect.mem_set_unit]
  exact Iff.rfl

/-- The 16 row blocks cover the result array: row r lies in the block of point r / 256. -/
theorem cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  have hN : cfg0.N = 16 := rfl
  refine ⟨⟨(i 0).val / 256, by rw [hN]; omega⟩, flush0_3 _, ?_⟩
  rw [mem_blk0]
  obtain ⟨-, -, -, -, -, -, e6, e7⟩ := idx0 ⟨(i 0).val / 256, by rw [hN]; omega⟩
  intro a
  match a with
  | ⟨0, _⟩ => show win0_3.index _ 0 * 256 ≤ (i 0).val ∧ (i 0).val < win0_3.index _ 0 * 256 + 256; rw [e6]; dsimp only; omega
  | ⟨1, _⟩ => show win0_3.index _ 1 * 3072 ≤ (i 1).val ∧ (i 1).val < win0_3.index _ 1 * 3072 + 3072; rw [e7]; omega

/-- THE ARRAY the input projection leaves: x·wᵀ + b of the three arrays the region finds. -/
theorem final0 (c : Dev nD) :
    (dat0 V c).arrAt 3 cfg0.N = affine (V c main_v2) (V c main_v0) (V c main_v3) :=
  (dat0 V c).arrAt_eq_of_cover 3 (affine (V c main_v2) (V c main_v0) (V c main_v3)) (fun t _ => flushed0 V c t) cover0

end Cert.KernelIdeal.Blocks

end
-- ==== Proof.KernelBlocksOut.lean ====
/-
  The output projection's region: 16 grid points, point t holding rows 256·t … 256·t + 255 of the 4096 merged-head rows,
  the whole output weight matrix and bias row, and writing back the same rows of the result: the result array ends as
  x·wᵀ + b of the three arrays the region finds.
-/
import proofs.«143096_j84997402788178_2_alg».proof.Proof.KernelBlocksIn

set_option maxRecDepth 16384

noncomputable section

open scoped BigOperators

namespace Cert.KernelIdeal.Blocks

open Cert.KernelIdeal Cert.KernelIdeal.Gen Cert.KernelIdeal.Entry Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the 16 points: window 0 and the output move with the point along the rows; the weights
    and the bias stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point t is rows 256·t … of the merged heads. -/
theorem iblk2_0_apply (c : Dev nD) (t : Fin cfg2.N) (y : S256x1024.Idx) (k : S4096x1024.Idx)
    (hk0 : (k 0).val = 256 * t.val + (y 0).val) (hk1 : (k 1).val = (y 1).val) :
    (iblk2 V c 0 t : Vec Ideal S256x1024 .bf16) y = (V c main_v21 : S4096x1024.Idx → EReal) k := by
  obtain ⟨e0, e1, -⟩ := idx2 t
  unfold iblk2
  rw [View.read_apply]
  show V c main_v21 _ = V c main_v21 _
  congr 1
  funext a; apply Fin.ext
  match a with
  | ⟨0, _⟩ => show win2_0.index t 0 * 256 + 1 * (y 0).val = (k 0).val; rw [e0, hk0]; omega
  | ⟨1, _⟩ => show win2_0.index t 1 * 1024 + 1 * (y 1).val = (k 1).val; rw [e1, hk1]; omega

/-- Window 1's block at every point is the whole output weight matrix. -/
theorem iblk2_1_eq (c : Dev nD) (t : Fin cfg2.N) : (iblk2 V c 1 t : Vec Ideal S1024x1024 .bf16) = V c main_v1 := by
  obtain ⟨-, -, e2, e3, -⟩ := idx2 t
  funext y
  unfold iblk2
  rw [View.read_apply]
  show V c main_v1 _ = V c main_v1 y
  congr 1
  funext a; apply Fin.ext
  match a with
  | ⟨0, _⟩ => show win2_1.index t 0 * 1024 + 1 * (y 0).val = (y 0).val; rw [e2]; omega
  | ⟨1, _⟩ => show win2_1.index t 1 * 1024 + 1 * (y 1).val = (y 1).val; rw [e3]; omega

/-- Window 2's block at every point is the whole output bias row. -/
theorem iblk2_2_eq (c : Dev nD) (t : Fin cfg2.N) : (iblk2 V c 2 t : Vec Ideal S1x1024 .f32) = V c main_v22 := by
  obtain ⟨-, -, -, -, e4, e5, -⟩ := idx2 t
  funext y
  unfold iblk2
  rw [View.read_apply]
  show V c main_v22 _ = V c main_v22 y
  congr 1
  funext a; apply Fin.ext
  match a with
  | ⟨0, _⟩ => show win2_2.index t 0 * 1 + 1 * (y 0).val = (y 0).val; rw [e4]; omega
  | ⟨1, _⟩ => show win2_2.index t 1 * 1024 + 1 * (y 1).val = (y 1).val; rw [e5]; omega

/-- What point t writes back is block t of the projection of the arrays the region finds. -/
theorem flushed2 (c : Dev nD) (t : Fin cfg2.N) :
    (dat2 V c).flushed 3 t = ((cfg2.win 3).blk t).view.read (Elt Ideal) (affine (V c main_v21) (V c main_v1) (V c main_v22)) := by
  show (cfg2.win 3).cut (grid2.coords t) ((dat2 V c).after 3 t) = _
  rw [after2_3]
  unfold out2_3
  rw [View.canon_unit_zero hz2]
  simp only [View.ld_unit_zero (S := S256x1024) hz2, View.ld_unit_zero (S := S1024x1024) hz2, View.ld_unit_zero (S := S1x1024) hz2]
  rw [iblk2_1_eq V c t, iblk2_2_eq V c t]
  obtain ⟨-, -, -, -, -, -, e6, e7⟩ := idx2 t
  funext j
  show k2_pay1 (iblk2 V c 0 t) (V c main_v1) (V c main_v22) j
    = affine (V c main_v21) (V c main_v1) (V c main_v22) (((cfg2.win 3).blk t).view.emb j)
  refine affine_point (k2_pay1 (iblk2 V c 0 t) (V c main_v1) (V c main_v22)) (iblk2 V c 0 t) (V c main_v21) (V c main_v1) (V c main_v22)
    (256 * t.val) (fun p q => proj_out_entry (iblk2 V c 0 t) (V c main_v1) (V c main_v22) p q)
    (fun y k hk0 hk1 => iblk2_0_apply V c t y k hk0 hk1) j (((cfg2.win 3).blk t).view.emb j) ?_ ?_
  · show win2_3.index t 0 * 256 + 1 * (j 0).val = 256 * t.val + (j 0).val; rw [e6]; omega
  · show win2_3.index t 1 * 1024 + 1 * (j 1).val = (j 1).val; rw [e7]; omega

/-- An index of the result array lies in point t's block iff each coordinate is in the block's range. -/
theorem mem_blk2 (t : Fin cfg2.N) (i : S4096x1024.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v23).slice (win2_3.rect t)).set ↔ _
  rw [View.set_slice_whole, Rect.mem_set_unit]
  exact Iff.rfl

/-- The 16 row blocks cover the result array: row r lies in the block of point r / 256. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 16 := rfl
  refine ⟨⟨(i 0).val / 256, by rw [hN]; omega⟩, flush2_3 _, ?_⟩
  rw [mem_blk2]
  obtain ⟨-, -, -, -, -, -, e6, e7⟩ := idx2 ⟨(i 0).val / 256, by rw [hN]; omega⟩
  intro a
  match a with
  | ⟨0, _⟩ => show win2_3.index _ 0 * 256 ≤ (i 0).val ∧ (i 0).val < win2_3.index _ 0 * 256 + 256; rw [e6]; dsimp only; omega
  | ⟨1, _⟩ => show win2_3.index _ 1 * 1024 ≤ (i 1).val ∧ (i 1).val < win2_3.index _ 1 * 1024 + 1024; rw [e7]; omega

/-- THE ARRAY the output projection leaves: x·wᵀ + b of the three arrays the region finds. -/
theorem final2 (c : Dev nD) :
    (dat2 V c).arrAt 3 cfg2.N = affine (V c main_v21) (V c main_v1) (V c main_v22) :=
  (dat2 V c).arrAt_eq_of_cover 3 (affine (V c main_v21) (V c main_v1) (V c main_v22)) (fun t _ => flushed2 V c t) cover2

end Cert.KernelIdeal.Blocks

end
-- ==== Proof.LibKeepdims.lean ====
/-
  Two layout operations read at an index, for a column kept as a unit axis (what `sum(…, keepdims=True)` produces):
  an `[a]` array viewed as an `[a, 1]` column, and an `[a, 1]` column repeated along `b` columns. Both are general
  in the extents.
-/
import Idealize.ShloMosaic.Lib.ValueLayout
import Idealize.ShloMosaic.Lib.Pipeline.Value

namespace Idealize.ShloMosaic.ValueIdx

variable {α : Type}

/-- An `[a]` array cast to `[a, 1]` reads, at `(i, u)`, the operand at `i`, whatever the unit coordinate `u`:
    the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Attention.lean ====
/-
  Multi-head self-attention over a batch of 2 sequences of 2048 tokens of width 1024, with 16 heads of width 64,
  written as ONE function of the five argument arrays, coordinate by coordinate, on the extended reals.

    qkv[n,t,o]     = Σ_c x[n,t,c] · w[o,c] + b[o]                      (the fused projection; o < 3072)
    piece s of it  = the columns s·1024 + h·64 + d  (s = 0 query, 1 key, 2 value; head h, lane d)
    score[n,h,i,j] = (Σ_d query[n,h,i,d] · key[n,h,j,d]) · 1/8
    top[n,h,i]     = max_j score[n,h,i,j]                               (a fold of max from −∞)
    weight         = exp (score − top),   mass[n,h,i] = Σ_j weight[n,h,i,j]
    mix[n,h,i,d]   = (Σ_j weight[n,h,i,j] · value[n,h,j,d]) / mass[n,h,i]          (normalise AFTER mixing)
    mix'[n,h,i,d]  = Σ_j (weight[n,h,i,j] / mass[n,h,i]) · value[n,h,j,d]          (normalise BEFORE mixing)
    out[n,t,o]     = Σ_c mix[n, c / 64, t, c % 64] · wo[o,c] + bo[o]

  The two arrangements of the normalisation agree when every entry involved is a real number (the mass is then a
  positive real); on the extended reals at large they need not, since a product does not distribute over a sum
  that contains both infinities.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-- The word of −∞ at f32: where both maxima start. -/
abbrev negInf : EReal := Ideal.ofBits .f32 0xFF800000#32
/-- The word of 1/8 at f32: the score's scale, 1/√64. -/
abbrev eighth : EReal := Ideal.ofBits .f32 0x3E000000#32

/-- Every entry of an array is a real number. -/
def IsReal {α : Type} (f : α → EReal) : Prop := ∀ i, ∃ r : ℝ, f i = (r : EReal)

/-- Column of the fused projection holding lane `d` of head `h` of piece `s` (0 query, 1 key, 2 value). -/
def col (s : Fin 3) (h : Fin 16) (d : Fin 64) : Fin 3072 := ⟨s.val * 1024 + h.val * 64 + d.val, by omega⟩
/-- Head of a merged channel. -/
def headOf (c : Fin 1024) : Fin 16 := ⟨c.val / 64, by omega⟩
/-- Lane of a merged channel inside its head. -/
def laneOf (c : Fin 1024) : Fin 64 := ⟨c.val % 64, Nat.mod_lt _ (by decide)⟩

section
variable (x : (⟨3, ![2, 2048, 1024]⟩ : Shape).Idx → EReal) (w : (⟨2, ![3072, 1024]⟩ : Shape).Idx → EReal)
  (b : (⟨1, ![3072]⟩ : Shape).Idx → EReal)

/-- The fused query/key/value projection. -/
def qkv (n : Fin 2) (t : Fin 2048) (o : Fin 3072) : EReal := (∑ c : Fin 1024, x (ix3 n t c) * w (ix2 o c)) + b (ix1 o)

/-- Piece `s` of the projection, per head. -/
def piece (s : Fin 3) (n : Fin 2) (h : Fin 16) (t : Fin 2048) (d : Fin 64) : EReal := qkv x w b n t (col s h d)

/-- Scaled query·key score of query row `i` against key row `j`. -/
def score (n : Fin 2) (h : Fin 16) (i j : Fin 2048) : EReal :=
  (∑ d : Fin 64, piece x w b 0 n h i d * piece x w b 1 n h j d) * eighth

/-- The greatest score of a query row. -/
def top (n : Fin 2) (h : Fin 16) (i : Fin 2048) : EReal :=
  (Finset.univ : Finset (Fin 2048)).fold max negInf (fun j => score x w b n h i j)

/-- Unnormalised softmax weight. -/
def weight (n : Fin 2) (h : Fin 16) (i j : Fin 2048) : EReal := Ideal.exp (score x w b n h i j - top x w b n h i)

/-- The weights' total over the keys. -/
def mass (n : Fin 2) (h : Fin 16) (i : Fin 2048) : EReal := ∑ j : Fin 2048, weight x w b n h i j

/-- Attention output, normalised after mixing the values. -/
def mix (n : Fin 2) (h : Fin 16) (i : Fin 2048) (d : Fin 64) : EReal :=
  Ideal.div (∑ j : Fin 2048, weight x w b n h i j * piece x w b 2 n h j d) (mass x w b n h i)

/-- Attention output, each weight normalised before mixing the values. -/
def mix' (n : Fin 2) (h : Fin 16) (i : Fin 2048) (d : Fin 64) : EReal :=
  ∑ j : Fin 2048, Ideal.div (weight x w b n h i j) (mass x w b n h i) * piece x w b 2 n h j d
end

section
variable (a : Fin 2 → Fin 16 → Fin 2048 → Fin 64 → EReal) (wo : (⟨2, ![1024, 1024]⟩ : Shape).Idx → EReal)
  (bo : (⟨1, ![1024]⟩ : Shape).Idx → EReal)

/-- The heads merged back into 1024 channels, then the output projection, of any per-head array `a`. -/
def outOf (n : Fin 2) (t : Fin 2048) (o : Fin 1024) : EReal :=
  (∑ c : Fin 1024, a n (headOf c) t (laneOf c) * wo (ix2 o c)) + bo (ix1 o)

/-- The result array of a per-head array `a`. -/
def resultOf : (⟨3, ![2, 2048, 1024]⟩ : Shape).Idx → EReal := fun i => outOf a wo bo (i 0) (i 1) (i 2)
end

/-- The layer's result, values mixed and then normalised. -/
def result (x : (⟨3, ![2, 2048, 1024]⟩ : Shape).Idx → EReal) (w : (⟨2, ![3072, 1024]⟩ : Shape).Idx → EReal)
    (b : (⟨1, ![3072]⟩ : Shape).Idx → EReal) (wo : (⟨2, ![1024, 1024]⟩ : Shape).Idx → EReal)
    (bo : (⟨1, ![1024]⟩ : Shape).Idx → EReal) : (⟨3, ![2, 2048, 1024]⟩ : Shape).Idx → EReal :=
  resultOf (mix x w b) wo bo

/-- The layer's result, weights normalised and then values mixed. -/
def result' (x : (⟨3, ![2, 2048, 1024]⟩ : Shape).Idx → EReal) (w : (⟨2, ![3072, 1024]⟩ : Shape).Idx → EReal)
    (b : (⟨1, ![3072]⟩ : Shape).Idx → EReal) (wo : (⟨2, ![1024, 1024]⟩ : Shape).Idx → EReal)
    (bo : (⟨1, ![1024]⟩ : Shape).Idx → EReal) : (⟨3, ![2, 2048, 1024]⟩ : Shape).Idx → EReal :=
  resultOf (mix' x w b) wo bo

end Cert.Attention

end
-- ==== Proof.AttentionRow.lean ====
/-
  Attention for ONE query row: a row q of 64 lanes against 2048 key rows K and 2048 value rows V.

    rowScore j  = (Σ_e q[e] · K[j,e]) · 1/8
    rowTop      = max_j rowScore j                       (folded from −∞)
    rowWeight j = exp (rowScore j − rowTop),   rowMass = Σ_j rowWeight j
    rowMix d    = (Σ_j rowWeight j · V[j,d]) / rowMass

  The layer's attention output at (n, h, i, ·) is rowMix of query row i of head h against that head's keys and values.
-/
import proofs.«143096_j84997402788178_2_alg».proof.Proof.Attention

noncomputable section

open scoped BigOperators

namespace Cert.Attention

open Idealize.ShloMosaic Idealize.ShloMosaic.ValueIdx

section
variable (q : Fin 64 → EReal) (K V : Fin 2048 → Fin 64 → EReal)

/-- Scaled score of the row against key row `j`. -/
def rowScore (j : Fin 2048) : EReal := (∑ e : Fin 64, q e * K j e) * eighth
/-- The row's greatest score. -/
def rowTop : EReal := (Finset.univ : Finset (Fin 2048)).fold max negInf (fun j => rowScore q K j)
/-- Unnormalised weight of key row `j`. -/
def rowWeight (j : Fin 2048) : EReal := Ideal.exp (rowScore q K j - rowTop q K)
/-- Total weight. -/
def rowMass : EReal := ∑ j : Fin 2048, rowWeight q K j
/-- The values mixed by the weights, then normalised. -/
def rowMix (d : Fin 64) : EReal := Ideal.div (∑ j : Fin 2048, rowWeight q K j * V j d) (rowMass q K)
end

/-- The layer's attention output, row by row. -/
theorem mix_eq_rowMix (x : (⟨3, ![2, 2048, 1024]⟩ : Shape).Idx → EReal) (w : (⟨2, ![3072, 1024]⟩ : Shape).Idx → EReal)
    (b : (⟨1, ![3072]⟩ : Shape).Idx → EReal) (n : Fin 2) (h : Fin 16) (i : Fin 2048) (d : Fin 64) :
    mix x w b n h i d = rowMix (piece x w b 0 n h i) (piece x w b 1 n h) (piece x w b 2 n h) d := rfl

end Cert.Attention

end
-- ==== Proof.KernelAttention.lean ====
/-
  The attention body's stored value read at one entry, on the extended reals. The body holds one block of 256 query
  rows of one head and that head's 2048 key rows and 2048 value rows; entry (p, d) of what it stores is the attention
  of query row p against all keys and values, lane d: scores q·kᵀ scaled by 1/8, the row's maximum (a lane reduction from −∞)
  subtracted, exponentials, their lane sum, the weights times the values, divided by that sum.
-/
import proofs.«143096_j84997402788178_2_alg».proof.Proof.Gen.KernelIdeal.Skeleton
import proofs.«143096_j84997402788178_2_alg».proof.Proof.KernelProducts
import proofs.«143096_j84997402788178_2_alg».proof.Proof.LibKeepdims
import proofs.«143096_j84997402788178_2_alg».proof.Proof.AttentionRow
import Idealize.ShloMosaic.Lib.ValueLayout
import Idealize.ShloMosaic.Lib.Pipeline.Value

noncomputable section

open scoped BigOperators

namespace Cert.KernelIdeal.Entry

open Cert.KernelIdeal Cert.KernelIdeal.Gen Cert.Attention Idealize.ShloMosaic Idealize.ShloMosaic.ValueIdx

/-- Row p of a [256, 2048] array with column k put back is (p, k). -/
theorem lift_row (p : Fin 256) (k : Fin (S256x2048.size 1)) :
    reduces_S256x2048_S256.lift (ix1 p) k = ix2 p (⟨k.val, k.isLt⟩ : Fin 2048) := by
  funext c; apply Fin.ext
  fin_cases c <;> rfl

/-- The lane maximum of row p, from −∞. -/
theorem rowmax_apply (v : FVec Ideal S256x2048 .f32) (p : Fin 256) :
    multiReduction .maximumf [1] S256 v 0xFF800000#32 reduces_S256x2048_S256 (.inl rfl) rfl (ix1 p)
      = (Finset.univ : Finset (Fin 2048)).fold max negInf (fun k => v (ix2 p k)) := by
  refine (Ideal.multiReduction_maximumf_single v 0xFF800000#32 reduces_S256x2048_S256 (.inl rfl) rfl (ix1 p)).trans ?_
  exact congrArg (fun f => Finset.fold max negInf f (Finset.univ : Finset (Fin 2048))) (funext fun k => congrArg v (lift_row p k))

/-- The lane sum of row p. -/
theorem rowsum_apply (v : FVec Ideal S256x2048 .f32) (p : Fin 256) :
    multiReduction .add [1] S256 v 0x00000000#32 reduces_S256x2048_S256 (.inl rfl) rfl (ix1 p)
      = ∑ k : Fin 2048, v (ix2 p k) := by
  refine (Ideal.multiReduction_add_single v 0x00000000#32 reduces_S256x2048_S256 (.inl rfl) rfl (ix1 p)).trans ?_
  exact Finset.sum_congr rfl fun k _ => congrArg v (lift_row p k)

/-- The scaled scores of query row p against key row j. -/
theorem scores_apply (q : FVec Ideal S256x64 .bf16) (k : FVec Ideal S2048x64 .bf16) (p : Fin 256) (j : Fin 2048) :
    mulf (matmul dot_S256x64_S2048x64_S256x2048_1_1_0_0_n_n none q k (constant S256x2048 .f32 0x00000000#32))
        (broadcast S256x2048 (Scalar.ofBits (F := Ideal) .f32 0x3E000000#32)) (ix2 p j)
      = (∑ e : Fin 64, q (ix2 p e) * k (ix2 j e)) * eighth := by
  rw [mulf_apply, query_key_apply, broadcast_apply]
  rfl

/-- A per-row value kept as a column and repeated along b lanes reads, at (p, c), the row's value. -/
theorem column_apply {b : ℕ} (r : FVec Ideal S256 .f32) (h1 : S256.ShapeCasts S256x1)
    (h2 : S256x1.Broadcasts ⟨2, ![256, b]⟩) (p : Fin 256) (c : Fin b) :
    broadcastTo ⟨2, ![256, b]⟩ (shapeCast S256x1 r h1) h2 (ix2 p c) = r (ix1 p) := by
  rw [broadcastTo_a1_ab_apply, shapeCast_a_a1_apply]

/-- The exponential of an array, entry by entry. -/
theorem exp_apply {s : Shape} (a : FVec Ideal s .f32) (i : s.Idx) : exp a i = Ideal.exp (a i) := rfl

/-- Entry (p, d) of the stored block is the attention of query row p, lane d. -/
theorem attn_entry (v0 : Vec Ideal S1x256x64 .bf16) (v2 v4 : Vec Ideal S1x2048x64 .bf16) (p : Fin 256) (d : Fin 64) :
    k1_pay1 v0 v2 v4 (ix3 (0 : Fin 1) p d)
      = rowMix (fun e => v0 (ix3 (0 : Fin 1) p e)) (fun j e => v2 (ix3 (0 : Fin 1) j e))
          (fun j e => v4 (ix3 (0 : Fin 1) j e)) d := by
  unfold k1_pay1
  rw [shapeCast_ab_1ab_apply, truncf_apply, divf_apply, weight_value_apply, column_apply, rowsum_apply]
  simp only [truncf_apply, exp_apply, subf_apply, column_apply, scores_apply, shapeCast_1ab_ab_apply]
  rw [rowmax_apply]
  simp only [scores_apply, shapeCast_1ab_ab_apply]
  unfold rowMix rowMass rowWeight rowTop rowScore
  rfl

end Cert.KernelIdeal.Entry

end
-- ==== Proof.KernelBlocksAttn.lean ====
/-
  The attention region: 32 × 8 grid points; point t is batch-head g = t / 8 and query tile t % 8. It holds query rows
  256·(t % 8) … of that batch-head, ALL 2048 key rows and ALL 2048 value rows of it, and writes back the same 256 rows
  of the result. So the result array ends as ONE function of the three arrays the region finds: entry (g, i, d) is the
  attention of query row i of batch-head g against that batch-head's keys and values, lane d.
-/
import proofs.«143096_j84997402788178_2_alg».proof.Proof.Gen.KernelIdeal.Frame
import proofs.«143096_j84997402788178_2_alg».proof.Proof.KernelAttention
import Idealize.ShloMosaic.Lib.Pipeline.Value

set_option maxRecDepth 16384

noncomputable section

open scoped BigOperators

namespace Cert.KernelIdeal.Blocks

open Cert.KernelIdeal Cert.KernelIdeal.Gen Cert.KernelIdeal.Entry Cert.Attention Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- Attention per batch-head over whole arrays: entry (g, i, d) from query row (g, i), keys (g, ·) and values (g, ·). -/
def attend (Q K U : (⟨3, ![32, 2048, 64]⟩ : Shape).Idx → EReal) : (⟨3, ![32, 2048, 64]⟩ : Shape).Idx → EReal :=
  fun i => rowMix (fun e => Q (ix3 (⟨(i 0).val, (i 0).isLt⟩ : Fin 32) (⟨(i 1).val, (i 1).isLt⟩ : Fin 2048) e))
    (fun j e => K (ix3 (⟨(i 0).val, (i 0).isLt⟩ : Fin 32) j e))
    (fun j e => U (ix3 (⟨(i 0).val, (i 0).isLt⟩ : Fin 32) j e)) (⟨(i 2).val, (i 2).isLt⟩ : Fin 64)

/-- One point, over plain arrays: a query block x0 that is rows r0 … r0 + 255 of batch-head g of Q, with x1 and x2 all
    of batch-head g of K and U, stores at (0, y1, y2) the attention array at (g, r0 + y1, y2). -/
theorem attend_point (pay x0 : (⟨3, ![1, 256, 64]⟩ : Shape).Idx → EReal) (x1 x2 : (⟨3, ![1, 2048, 64]⟩ : Shape).Idx → EReal)
    (Q K U : (⟨3, ![32, 2048, 64]⟩ : Shape).Idx → EReal) (g r0 : ℕ)
    (hpay : ∀ (p : Fin 256) (d : Fin 64), pay (ix3 (0 : Fin 1) p d)
      = rowMix (fun e => x0 (ix3 (0 : Fin 1) p e)) (fun j e => x1 (ix3 (0 : Fin 1) j e)) (fun j e => x2 (ix3 (0 : Fin 1) j e)) d)
    (h0 : ∀ (y : (⟨3, ![1, 256, 64]⟩ : Shape).Idx) (k : (⟨3, ![32, 2048, 64]⟩ : Shape).Idx),
      (k 0).val = g + (y 0).val → (k 1).val = r0 + (y 1).val → (k 2).val = (y 2).val → x0 y = Q k)
    (h1 : ∀ (y : (⟨3, ![1, 2048, 64]⟩ : Shape).Idx) (k : (⟨3, ![32, 2048, 64]⟩ : Shape).Idx),
      (k 0).val = g + (y 0).val → (k 1).val = (y 1).val → (k 2).val = (y 2).val → x1 y = K k)
    (h2 : ∀ (y : (⟨3, ![1, 2048, 64]⟩ : Shape).Idx) (k : (⟨3, ![32, 2048, 64]⟩ : Shape).Idx),
      (k 0).val = g + (y 0).val → (k 1).val = (y 1).val → (k 2).val = (y 2).val → x2 y = U k)
    (y : (⟨3, ![1, 256, 64]⟩ : Shape).Idx) (i : (⟨3, ![32, 2048, 64]⟩ : Shape).Idx)
    (hi0 : (i 0).val = g + (y 0).val) (hi1 : (i 1).val = r0 + (y 1).val) (hi2 : (i 2).val = (y 2).val) :
    pay y = attend Q K U i := by
  obtain ⟨u, p, d, rfl⟩ : ∃ (u : Fin 1) (p : Fin 256) (d : Fin 64), y = ix3 u p d := ⟨y 0, y 1, y 2, eq_ix3 y⟩
  obtain rfl : u = 0 := Subsingleton.elim _ _
  rw [hpay]
  unfold attend
  have ed : (⟨(i 2).val, (i 2).isLt⟩ : Fin 64) = d := Fin.ext hi2
  have eq : (fun e => x0 (ix3 (0 : Fin 1) p e))
      = fun e => Q (ix3 (⟨(i 0).val, (i 0).isLt⟩ : Fin 32) (⟨(i 1).val, (i 1).isLt⟩ : Fin 2048) e) :=
    funext fun e => h0 (ix3 (0 : Fin 1) p e) (ix3 (⟨(i 0).val, (i 0).isLt⟩ : Fin 32) (⟨(i 1).val, (i 1).isLt⟩ : Fin 2048) e) hi0 hi1 rfl
  have ek : (fun j e => x1 (ix3 (0 : Fin 1) j e)) = fun j e => K (ix3 (⟨(i 0).val, (i 0).isLt⟩ : Fin 32) j e) :=
    funext fun j => funext fun e => h1 (ix3 (0 : Fin 1) j e) (ix3 (⟨(i 0).val, (i 0).isLt⟩ : Fin 32) j e) hi0 rfl rfl
  have eu : (fun j e => x2 (ix3 (0 : Fin 1) j e)) = fun j e => U (ix3 (⟨(i 0).val, (i 0).isLt⟩ : Fin 32) j e) :=
    funext fun j => funext fun e => h2 (ix3 (0 : Fin 1) j e) (ix3 (⟨(i 0).val, (i 0).isLt⟩ : Fin 32) j e) hi0 rfl rfl
  rw [ed, eq, ek, eu]

/-- The printed index maps over the 256 points: the query and output windows sit at (t / 8, t % 8, 0); the key and value
    windows at (t / 8, 0, 0). -/
theorem idx1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0 :=
  (by decide +kernel : ∀ t : Fin grid1.N, _)

/-- The query window's block at point t: rows 256·(t % 8) … of batch-head t / 8. -/
theorem iblk1_0_apply (c : Dev nD) (t : Fin cfg1.N) (y : S1x256x64.Idx) (k : S32x2048x64.Idx)
    (hk0 : (k 0).val = t.val / 8 + (y 0).val) (hk1 : (k 1).val = 256 * (t.val % 8) + (y 1).val) (hk2 : (k 2).val = (y 2).val) :
    (iblk1 V c 0 t : Vec Ideal S1x256x64 .bf16) y = (V c main_v9 : S32x2048x64.Idx → EReal) k := by
  obtain ⟨e0, e1, e2, -⟩ := idx1 t
  unfold iblk1
  rw [View.read_apply]
  show V c main_v9 _ = V c main_v9 _
  congr 1
  funext a; apply Fin.ext
  match a with
  | ⟨0, _⟩ => show win1_0.index t 0 * 1 + 1 * (y 0).val = (k 0).val; rw [e0, hk0]; omega
  | ⟨1, _⟩ => show win1_0.index t 1 * 256 + 1 * (y 1).val = (k 1).val; rw [e1, hk1]; omega
  | ⟨2, _⟩ => show win1_0.index t 2 * 64 + 1 * (y 2).val = (k 2).val; rw [e2, hk2]; omega

/-- The key window's block at point t: all rows of batch-head t / 8. -/
theorem iblk1_1_apply (c : Dev nD) (t : Fin cfg1.N) (y : S1x2048x64.Idx) (k : S32x2048x64.Idx)
    (hk0 : (k 0).val = t.val / 8 + (y 0).val) (hk1 : (k 1).val = (y 1).val) (hk2 : (k 2).val = (y 2).val) :
    (iblk1 V c 1 t : Vec Ideal S1x2048x64 .bf16) y = (V c main_v13 : S32x2048x64.Idx → EReal) k := by
  obtain ⟨-, -, -, e0, e1, e2, -⟩ := idx1 t
  unfold iblk1
  rw [View.read_apply]
  show V c main_v13 _ = V c main_v13 _
  congr 1
  funext a; apply Fin.ext
  match a with
  | ⟨0, _⟩ => show win1_1.index t 0 * 1 + 1 * (y 0).val = (k 0).val; rw [e0, hk0]; omega
  | ⟨1, _⟩ => show win1_1.index t 1 * 2048 + 1 * (y 1).val = (k 1).val; rw [e1, hk1]; omega
  | ⟨2, _⟩ => show win1_1.index t 2 * 64 + 1 * (y 2).val = (k 2).val; rw [e2, hk2]; omega

/-- The value window's block at point t: all rows of batch-head t / 8. -/
theorem iblk1_2_apply (c : Dev nD) (t : Fin cfg1.N) (y : S1x2048x64.Idx) (k : S32x2048x64.Idx)
    (hk0 : (k 0).val = t.val / 8 + (y 0).val) (hk1 : (k 1).val = (y 1).val) (hk2 : (k 2).val = (y 2).val) :
    (iblk1 V c 2 t : Vec Ideal S1x2048x64 .bf16) y = (V c main_v17 : S32x2048x64.Idx → EReal) k := by
  obtain ⟨-, -, -, -, -, -, e0, e1, e2, -⟩ := idx1 t
  unfold iblk1
  rw [View.read_apply]
  show V c main_v17 _ = V c main_v17 _
  congr 1
  funext a; apply Fin.ext
  match a with
  | ⟨0, _⟩ => show win1_2.index t 0 * 1 + 1 * (y 0).val = (k 0).val; rw [e0, hk0]; omega
  | ⟨1, _⟩ => show win1_2.index t 1 * 2048 + 1 * (y 1).val = (k 1).val; rw [e1, hk1]; omega
  | ⟨2, _⟩ => show win1_2.index t 2 * 64 + 1 * (y 2).val = (k 2).val; rw [e2, hk2]; omega

/-- What point t writes back is block t of the attention of the arrays the region finds. -/
theorem flushed1 (c : Dev nD) (t : Fin cfg1.N) :
    (dat1 V c).flushed 3 t = ((cfg1.win 3).blk t).view.read (Elt Ideal) (attend (V c main_v9) (V c main_v13) (V c main_v17)) := by
  show (cfg1.win 3).cut (grid1.coords t) ((dat1 V c).after 3 t) = _
  rw [after1_3]
  unfold out1_3
  rw [View.canon_unit_zero hz3]
  simp only [View.ld_unit_zero (S := S1x256x64) hz3, View.ld_unit_zero (S := S1x2048x64) hz3]
  obtain ⟨-, -, -, -, -, -, -, -, -, e9, e10, e11⟩ := idx1 t
  funext j
  show k1_pay1 (iblk1 V c 0 t) (iblk1 V c 1 t) (iblk1 V c 2 t) j
    = attend (V c main_v9) (V c main_v13) (V c main_v17) (((cfg1.win 3).blk t).view.emb j)
  refine attend_point (k1_pay1 (iblk1 V c 0 t) (iblk1 V c 1 t) (iblk1 V c 2 t)) (iblk1 V c 0 t) (iblk1 V c 1 t) (iblk1 V c 2 t)
    (V c main_v9) (V c main_v13) (V c main_v17) (t.val / 8) (256 * (t.val % 8))
    (fun p d => attn_entry (iblk1 V c 0 t) (iblk1 V c 1 t) (iblk1 V c 2 t) p d)
    (fun y k hk0 hk1 hk2 => iblk1_0_apply V c t y k hk0 hk1 hk2)
    (fun y k hk0 hk1 hk2 => iblk1_1_apply V c t y k hk0 hk1 hk2)
    (fun y k hk0 hk1 hk2 => iblk1_2_apply V c t y k hk0 hk1 hk2)
    j (((cfg1.win 3).blk t).view.emb j) ?_ ?_ ?_
  · show win1_3.index t 0 * 1 + 1 * (j 0).val = t.val / 8 + (j 0).val; rw [e9]; omega
  · show win1_3.index t 1 * 256 + 1 * (j 1).val = 256 * (t.val % 8) + (j 1).val; rw [e10]; omega
  · show win1_3.index t 2 * 64 + 1 * (j 2).val = (j 2).val; rw [e11]; omega

/-- An index of the result array lies in point t's block iff each coordinate is in the block's range. -/
theorem mem_blk1 (t : Fin cfg1.N) (i : S32x2048x64.Idx) :
    i ∈ ((cfg1.win 3).blk t).view.set ↔ ∀ a : Fin 3, win1_3.index t a * S1x256x64.size a ≤ (i a).val ∧ (i a).val < win1_3.index t a * S1x256x64.size a + S1x256x64.size a := by
  show i ∈ ((View.whole main_v18).slice (win1_3.rect t)).set ↔ _
  rw [View.set_slice_whole, Rect.mem_set_unit]
  exact Iff.rfl

/-- The 256 blocks cover the result array: entry (g, i, ·) lies in the block of point 8·g + i / 256. -/
theorem cover1 (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have hN : cfg1.N = 256 := rfl
  refine ⟨⟨(i 0).val * 8 + (i 1).val / 256, by rw [hN]; omega⟩, flush1_3 _, ?_⟩
  rw [mem_blk1]
  obtain ⟨-, -, -, -, -, -, -, -, -, e9, e10, e11⟩ := idx1 ⟨(i 0).val * 8 + (i 1).val / 256, by rw [hN]; omega⟩
  intro a
  match a with
  | ⟨0, _⟩ => show win1_3.index _ 0 * 1 ≤ (i 0).val ∧ (i 0).val < win1_3.index _ 0 * 1 + 1; rw [e9]; dsimp only; omega
  | ⟨1, _⟩ => show win1_3.index _ 1 * 256 ≤ (i 1).val ∧ (i 1).val < win1_3.index _ 1 * 256 + 256; rw [e10]; dsimp only; omega
  | ⟨2, _⟩ => show win1_3.index _ 2 * 64 ≤ (i 2).val ∧ (i 2).val < win1_3.index _ 2 * 64 + 64; rw [e11]; omega

/-- THE ARRAY the attention region leaves: the attention of the three arrays the region finds. -/
theorem final1 (c : Dev nD) :
    (dat1 V c).arrAt 3 cfg1.N = attend (V c main_v9) (V c main_v13) (V c main_v17) :=
  (dat1 V c).arrAt_eq_of_cover 3 (attend (V c main_v9) (V c main_v13) (V c main_v17)) (fun t _ => flushed1 V c t) cover1

end Cert.KernelIdeal.Blocks

end
-- ==== Proof.Layout.lean ====
/-
  The layout operations between the three regions, read at explicit coordinates over an arbitrary array (no arithmetic:
  each is a re-indexing).

    rows      [2, 2048, C] → [4096, C]            : row n·2048 + t is (n, t)
    unrows    [4096, C] → [2, 2048, C]            : the inverse
    heads     [4096, 3072] → [32, 2048, 64]       : piece s of the fused projection, per batch-head: entry (n·16 + h, i, d)
                                                     is entry (n·2048 + i, s·1024 + h·64 + d)  (reshape, slice, reshape,
                                                     transpose, reshape)
    merge     [32, 2048, 64] → [4096, 1024]       : entry (n·2048 + t, c) is entry (n·16 + c / 64, t, c % 64)  (reshape,
                                                     transpose, reshape)
-/
import proofs.«143096_j84997402788178_2_alg».proof.Proof.Attention
import Idealize.ShloMosaic.Lib.ValueLayout
import Idealize.ShloMosaic.Lib.Pipeline.Value

noncomputable section

namespace Cert.Attention.Layout

open Cert.Attention Idealize.ShloMosaic Idealize.ShloMosaic.ValueIdx

variable {α : Type}

/-- Rows of a [2, 2048, C] array laid out as 4096 rows. -/
theorem rows_apply {C : ℕ} (X : (⟨3, ![2, 2048, C]⟩ : Shape).Idx → α)
    (h : (⟨3, ![2, 2048, C]⟩ : Shape).ShapeCasts ⟨2, ![4096, C]⟩) (n : Fin 2) (t : Fin 2048) (c : Fin C) :
    shapeCast ⟨2, ![4096, C]⟩ X h (ix2 (⟨n.val * 2048 + t.val, by omega⟩ : Fin 4096) c) = X (ix3 n t c) :=
  shapeCast_apply X h _ _ (by rw [Shape.rowMajor_val_three, Shape.rowMajor_val_two]; rfl)

/-- 4096 rows laid out as [2, 2048, C]. -/
theorem unrows_apply {C : ℕ} (A : (⟨2, ![4096, C]⟩ : Shape).Idx → α)
    (h : (⟨2, ![4096, C]⟩ : Shape).ShapeCasts ⟨3, ![2, 2048, C]⟩) (n : Fin 2) (t : Fin 2048) (c : Fin C) :
    shapeCast ⟨3, ![2, 2048, C]⟩ A h (ix3 n t c) = A (ix2 (⟨n.val * 2048 + t.val, by omega⟩ : Fin 4096) c) :=
  shapeCast_apply A h _ _ (by rw [Shape.rowMajor_val_three, Shape.rowMajor_val_two]; rfl)

/-- Piece s of the fused projection, per batch-head. -/
theorem heads_apply (A : (⟨2, ![4096, 3072]⟩ : Shape).Idx → α) (s : Fin 3)
    (h1 : (⟨2, ![4096, 3072]⟩ : Shape).ShapeCasts ⟨5, ![2, 2048, 3, 16, 64]⟩)
    (h2 : (⟨5, ![2, 2048, 3, 16, 64]⟩ : Shape).Slices ![0, 0, s.val, 0, 0] ⟨5, ![2, 2048, 1, 16, 64]⟩)
    (h3 : (⟨5, ![2, 2048, 1, 16, 64]⟩ : Shape).ShapeCasts ⟨4, ![2, 2048, 16, 64]⟩)
    (h4 : (⟨4, ![2, 2048, 16, 64]⟩ : Shape).Transposes [0, 2, 1, 3] ⟨4, ![2, 16, 2048, 64]⟩)
    (h5 : (⟨4, ![2, 16, 2048, 64]⟩ : Shape).ShapeCasts ⟨3, ![32, 2048, 64]⟩)
    (n : Fin 2) (h : Fin 16) (i : Fin 2048) (d : Fin 64) :
    shapeCast ⟨3, ![32, 2048, 64]⟩ (transpose ⟨4, ![2, 16, 2048, 64]⟩ [0, 2, 1, 3]
        (shapeCast ⟨4, ![2, 2048, 16, 64]⟩ (extractStridedSlice ⟨5, ![2, 2048, 1, 16, 64]⟩ ![0, 0, s.val, 0, 0]
          (shapeCast ⟨5, ![2, 2048, 3, 16, 64]⟩ A h1) h2) h3) h4) h5
        (ix3 (⟨n.val * 16 + h.val, by omega⟩ : Fin 32) i d)
      = A (ix2 (⟨n.val * 2048 + i.val, by omega⟩ : Fin 4096) (col s h d)) := by
  refine (shapeCast_apply _ h5 _ (ix4 n h i d) (by rw [Shape.rowMajor_val_four, Shape.rowMajor_val_three]; rfl)).trans ?_
  refine (transpose_apply [0, 2, 1, 3] _ h4 (ix4 n h i d) (ix4 n i h d) (fun b => match b with
    | ⟨0, _⟩ => rfl
    | ⟨1, _⟩ => rfl
    | ⟨2, _⟩ => rfl
    | ⟨3, _⟩ => rfl)).trans ?_
  refine (shapeCast_apply _ h3 (ix4 n i h d) (ix5 n i (0 : Fin 1) h d) (by
    rw [Shape.rowMajor_val_five, Shape.rowMajor_val_four]
    show (((n.val * 2048 + i.val) * 1 + 0) * 16 + h.val) * 64 + d.val = ((n.val * 2048 + i.val) * 16 + h.val) * 64 + d.val
    omega)).trans ?_
  refine (extractStridedSlice_apply ![0, 0, s.val, 0, 0] _ h2 (ix5 n i (0 : Fin 1) h d) (ix5 n i s h d) (fun a => match a with
    | ⟨0, _⟩ => by show n.val = 0 + n.val; omega
    | ⟨1, _⟩ => by show i.val = 0 + i.val; omega
    | ⟨2, _⟩ => by show s.val = s.val + 0; omega
    | ⟨3, _⟩ => by show h.val = 0 + h.val; omega
    | ⟨4, _⟩ => by show d.val = 0 + d.val; omega)).trans ?_
  exact shapeCast_apply A h1 (ix5 n i s h d) _ (by
    rw [Shape.rowMajor_val_two, Shape.rowMajor_val_five]
    have hs := s.isLt; have hh := h.isLt; have hd := d.isLt
    show (n.val * 2048 + i.val) * 3072 + (s.val * 1024 + h.val * 64 + d.val)
      = (((n.val * 2048 + i.val) * 3 + s.val) * 16 + h.val) * 64 + d.val
    omega)

/-- The heads merged back into 1024 channels, as 4096 rows. -/
theorem merge_apply (A : (⟨3, ![32, 2048, 64]⟩ : Shape).Idx → α)
    (g1 : (⟨3, ![32, 2048, 64]⟩ : Shape).ShapeCasts ⟨4, ![2, 16, 2048, 64]⟩)
    (g2 : (⟨4, ![2, 16, 2048, 64]⟩ : Shape).Transposes [0, 2, 1, 3] ⟨4, ![2, 2048, 16, 64]⟩)
    (g3 : (⟨4, ![2, 2048, 16, 64]⟩ : Shape).ShapeCasts ⟨2, ![4096, 1024]⟩)
    (n : Fin 2) (t : Fin 2048) (c : Fin 1024) :
    shapeCast ⟨2, ![4096, 1024]⟩ (transpose ⟨4, ![2, 2048, 16, 64]⟩ [0, 2, 1, 3] (shapeCast ⟨4, ![2, 16, 2048, 64]⟩ A g1) g2) g3
        (ix2 (⟨n.val * 2048 + t.val, by omega⟩ : Fin 4096) c)
      = A (ix3 (⟨n.val * 16 + (headOf c).val, by have := (headOf c).isLt; omega⟩ : Fin 32) t (laneOf c)) := by
  refine (shapeCast_apply _ g3 _ (ix4 n t (headOf c) (laneOf c)) (by
    rw [Shape.rowMajor_val_four, Shape.rowMajor_val_two]
    have hc := c.isLt
    show ((n.val * 2048 + t.val) * 16 + c.val / 64) * 64 + c.val % 64 = (n.val * 2048 + t.val) * 1024 + c.val
    omega)).trans ?_
  refine (transpose_apply [0, 2, 1, 3] _ g2 (ix4 n t (headOf c) (laneOf c)) (ix4 n (headOf c) t (laneOf c)) (fun b => match b with
    | ⟨0, _⟩ => rfl
    | ⟨1, _⟩ => rfl
    | ⟨2, _⟩ => rfl
    | ⟨3, _⟩ => rfl)).trans ?_
  exact shapeCast_apply A g1 (ix4 n (headOf c) t (laneOf c)) _ (by rw [Shape.rowMajor_val_three, Shape.rowMajor_val_four]; rfl)

end Cert.Attention.Layout

end
-- ==== Proof.KernelResult.lean ====
/-
  What the kernel program's result buffer holds at the end, as the layer's function of the five argument arrays.

  The contents at each boundary of @main are a fold from the launch memory: a host stretch applies its operations, a
  region replaces its result array by what its write-backs leave. Read back from the end:
    the result is the output projection's array laid out as [2, 2048, 1024];
    that array is x·wᵀ + b of the merged heads, the output weights and the output bias;
    the merged heads are the attention array re-laid from [32, 2048, 64];
    the attention array is the attention of the three per-head pieces;
    each piece is the input projection's array re-laid per batch-head;
    the input projection's array is x·wᵀ + b of the activations (as 4096 rows), the fused weights and bias.
  Each step is stated at explicit coordinates and equals the corresponding definition of the layer.
-/
import proofs.«143096_j84997402788178_2_alg».proof.Proof.Gen.KernelIdeal.Frame
import proofs.«143096_j84997402788178_2_alg».proof.Proof.KernelBlocksIn
import proofs.«143096_j84997402788178_2_alg».proof.Proof.KernelBlocksOut
import proofs.«143096_j84997402788178_2_alg».proof.Proof.KernelBlocksAttn
import proofs.«143096_j84997402788178_2_alg».proof.Proof.Layout
import Idealize.ShloMosaic.Lib.StableHlo.Run
import Idealize.ShloMosaic.Lib.Tactic

set_option maxRecDepth 16384

noncomputable section

open scoped BigOperators

namespace Cert.KernelIdeal.Final

open Cert.KernelIdeal Cert.KernelIdeal.Gen Cert.KernelIdeal.Blocks Cert.Attention Cert.Attention.Layout
open Idealize.ShloMosaic Idealize.ShloMosaic.TcCoe Idealize.ShloMosaic.ValueIdx Idealize.ShloMosaic.Tactic Idealize.SL.Sem Idealize.ShloMosaic.StableHlo

variable (m : (ℓ : Loc nD τ sig) → Buf (Elt Ideal) ℓ) (ρ : Dev nD → PrngReg) (c : Dev nD)

/-- The five argument arrays at launch, on core c. -/
abbrev xin : S2x2048x1024.Idx → EReal := m ((c : Thread nD τ).loc main_arg0)
abbrev win : S3072x1024.Idx → EReal := m ((c : Thread nD τ).loc main_arg1)
abbrev bin : S3072.Idx → EReal := m ((c : Thread nD τ).loc main_arg2)
abbrev wout : S1024x1024.Idx → EReal := m ((c : Thread nD τ).loc main_arg3)
abbrev bout : S1024.Idx → EReal := m ((c : Thread nD τ).loc main_arg4)

/-- The projection array at (r, o). -/
theorem affine_apply {R O : ℕ} (X : (⟨2, ![R, 1024]⟩ : Shape).Idx → EReal) (W : (⟨2, ![O, 1024]⟩ : Shape).Idx → EReal)
    (B : (⟨2, ![1, O]⟩ : Shape).Idx → EReal) (r : Fin R) (o : Fin O) :
    affine X W B (ix2 r o) = (∑ k : Fin 1024, X (ix2 r k) * W (ix2 o k)) + B (ix2 (0 : Fin 1) o) := rfl

/-- The attention array at (g, i, d). -/
theorem attend_apply (Q K U : (⟨3, ![32, 2048, 64]⟩ : Shape).Idx → EReal) (g : Fin 32) (i : Fin 2048) (d : Fin 64) :
    attend Q K U (ix3 g i d) = rowMix (fun e => Q (ix3 g i e)) (fun j e => K (ix3 g j e)) (fun j e => U (ix3 g j e)) d := rfl

/-! ## The input projection -/

theorem v2_eq : V1 m ρ c main_v2 = shapeCast S4096x1024 (m ((c : Thread nD τ).loc main_arg0)) shapeCasts_S2x2048x1024_S4096x1024 := by
  show StableHlo.after hostOps0 (W0 m ρ c) (Proc.devRef .tc main_v2) = _
  after_results
  rfl

theorem v0_eq : (V1 m ρ c main_v0 : S3072x1024.Idx → EReal) = win m c := by
  show StableHlo.after hostOps0 (W0 m ρ c) (Proc.devRef .tc main_v0) = _
  after_results
  rfl

theorem v3_eq : V1 m ρ c main_v3 = shapeCast S1x3072 (m ((c : Thread nD τ).loc main_arg2)) shapeCasts_S3072_S1x3072 := by
  show StableHlo.after hostOps0 (W0 m ρ c) (Proc.devRef .tc main_v3) = _
  after_results
  rfl

theorem v4_eq : W2 m ρ c (Proc.devRef .tc main_v4) = affine (V1 m ρ c main_v2) (V1 m ρ c main_v0) (V1 m ρ c main_v3) :=
  (W2_arr m ρ c 3).trans (final0 (V1 m ρ) c)

/-- The input projection's array at row n·2048 + t is the fused projection at (n, t). -/
theorem qkv_at (n : Fin 2) (t : Fin 2048) (o : Fin 3072) :
    (W2 m ρ c (Proc.devRef .tc main_v4) : S4096x3072.Idx → EReal) (ix2 (⟨n.val * 2048 + t.val, by omega⟩ : Fin 4096) o)
      = qkv (xin m c) (win m c) (bin m c) n t o := by
  rw [v4_eq, affine_apply, v2_eq, v0_eq, v3_eq]
  unfold qkv
  refine congrArg₂ (· + ·) (Finset.sum_congr rfl fun k _ => congrArg₂ (· * ·) ?_ rfl) ?_
  · exact rows_apply (m ((c : Thread nD τ).loc main_arg0)) shapeCasts_S2x2048x1024_S4096x1024 n t k
  · exact shapeCast_a_1a_apply (m ((c : Thread nD τ).loc main_arg2)) shapeCasts_S3072_S1x3072 (0 : Fin 1) o

/-! ## The three pieces per batch-head -/

theorem v9_eq : V3 m ρ c main_v9 = shapeCast S32x2048x64 (transpose S2x16x2048x64 [0, 2, 1, 3]
    (shapeCast S2x2048x16x64 (extractStridedSlice S2x2048x1x16x64 ![0, 0, 0, 0, 0]
      (shapeCast S2x2048x3x16x64 (W2 m ρ c (Proc.devRef .tc main_v4)) shapeCasts_S4096x3072_S2x2048x3x16x64)
      slices_S2x2048x3x16x64_S2x2048x1x16x64_0_0_0_0_0) shapeCasts_S2x2048x1x16x64_S2x2048x16x64)
    transposes_S2x2048x16x64_S2x16x2048x64_0_2_1_3) shapeCasts_S2x16x2048x64_S32x2048x64 := by
  show StableHlo.after hostOps1 (W2 m ρ c) (Proc.devRef .tc main_v9) = _
  after_results
  rfl

theorem v13_eq : V3 m ρ c main_v13 = shapeCast S32x2048x64 (transpose S2x16x2048x64 [0, 2, 1, 3]
    (shapeCast S2x2048x16x64 (extractStridedSlice S2x2048x1x16x64 ![0, 0, 1, 0, 0]
      (shapeCast S2x2048x3x16x64 (W2 m ρ c (Proc.devRef .tc main_v4)) shapeCasts_S4096x3072_S2x2048x3x16x64)
      slices_S2x2048x3x16x64_S2x2048x1x16x64_0_0_1_0_0) shapeCasts_S2x2048x1x16x64_S2x2048x16x64)
    transposes_S2x2048x16x64_S2x16x2048x64_0_2_1_3) shapeCasts_S2x16x2048x64_S32x2048x64 := by
  show StableHlo.after hostOps1 (W2 m ρ c) (Proc.devRef .tc main_v13) = _
  after_results
  rfl

theorem v17_eq : V3 m ρ c main_v17 = shapeCast S32x2048x64 (transpose S2x16x2048x64 [0, 2, 1, 3]
    (shapeCast S2x2048x16x64 (extractStridedSlice S2x2048x1x16x64 ![0, 0, 2, 0, 0]
      (shapeCast S2x2048x3x16x64 (W2 m ρ c (Proc.devRef .tc main_v4)) shapeCasts_S4096x3072_S2x2048x3x16x64)
      slices_S2x2048x3x16x64_S2x2048x1x16x64_0_0_2_0_0) shapeCasts_S2x2048x1x16x64_S2x2048x16x64)
    transposes_S2x2048x16x64_S2x16x2048x64_0_2_1_3) shapeCasts_S2x16x2048x64_S32x2048x64 := by
  show StableHlo.after hostOps1 (W2 m ρ c) (Proc.devRef .tc main_v17) = _
  after_results
  rfl

/-- The query array at batch-head n·16 + h is piece 0 of head h of sequence n. -/
theorem query_at (n : Fin 2) (h : Fin 16) (i : Fin 2048) (d : Fin 64) :
    (V3 m ρ c main_v9 : S32x2048x64.Idx → EReal) (ix3 (⟨n.val * 16 + h.val, by omega⟩ : Fin 32) i d) = piece (xin m c) (win m c) (bin m c) 0 n h i d := by
  rw [v9_eq]
  exact (heads_apply (W2 m ρ c (Proc.devRef .tc main_v4) : S4096x3072.Idx → EReal) 0 shapeCasts_S4096x3072_S2x2048x3x16x64
    slices_S2x2048x3x16x64_S2x2048x1x16x64_0_0_0_0_0 shapeCasts_S2x2048x1x16x64_S2x2048x16x64
    transposes_S2x2048x16x64_S2x16x2048x64_0_2_1_3 shapeCasts_S2x16x2048x64_S32x2048x64 n h i d).trans (qkv_at m ρ c n i (col 0 h d))

/-- The key array likewise is piece 1. -/
theorem key_at (n : Fin 2) (h : Fin 16) (i : Fin 2048) (d : Fin 64) :
    (V3 m ρ c main_v13 : S32x2048x64.Idx → EReal) (ix3 (⟨n.val * 16 + h.val, by omega⟩ : Fin 32) i d) = piece (xin m c) (win m c) (bin m c) 1 n h i d := by
  rw [v13_eq]
  exact (heads_apply (W2 m ρ c (Proc.devRef .tc main_v4) : S4096x3072.Idx → EReal) 1 shapeCasts_S4096x3072_S2x2048x3x16x64
    slices_S2x2048x3x16x64_S2x2048x1x16x64_0_0_1_0_0 shapeCasts_S2x2048x1x16x64_S2x2048x16x64
    transposes_S2x2048x16x64_S2x16x2048x64_0_2_1_3 shapeCasts_S2x16x2048x64_S32x2048x64 n h i d).trans (qkv_at m ρ c n i (col 1 h d))

/-- The value array likewise is piece 2. -/
theorem value_at (n : Fin 2) (h : Fin 16) (i : Fin 2048) (d : Fin 64) :
    (V3 m ρ c main_v17 : S32x2048x64.Idx → EReal) (ix3 (⟨n.val * 16 + h.val, by omega⟩ : Fin 32) i d) = piece (xin m c) (win m c) (bin m c) 2 n h i d := by
  rw [v17_eq]
  exact (heads_apply (W2 m ρ c (Proc.devRef .tc main_v4) : S4096x3072.Idx → EReal) 2 shapeCasts_S4096x3072_S2x2048x3x16x64
    slices_S2x2048x3x16x64_S2x2048x1x16x64_0_0_2_0_0 shapeCasts_S2x2048x1x16x64_S2x2048x16x64
    transposes_S2x2048x16x64_S2x16x2048x64_0_2_1_3 shapeCasts_S2x16x2048x64_S32x2048x64 n h i d).trans (qkv_at m ρ c n i (col 2 h d))

/-! ## The attention -/

theorem v18_eq : W4 m ρ c (Proc.devRef .tc main_v18) = attend (V3 m ρ c main_v9) (V3 m ρ c main_v13) (V3 m ρ c main_v17) :=
  (W4_arr m ρ c 3).trans (final1 (V3 m ρ) c)

/-- The attention array at batch-head n·16 + h is the layer's attention output of head h of sequence n. -/
theorem mix_at (n : Fin 2) (h : Fin 16) (i : Fin 2048) (d : Fin 64) :
    (W4 m ρ c (Proc.devRef .tc main_v18) : S32x2048x64.Idx → EReal) (ix3 (⟨n.val * 16 + h.val, by omega⟩ : Fin 32) i d)
      = mix (xin m c) (win m c) (bin m c) n h i d := by
  rw [v18_eq, attend_apply, mix_eq_rowMix]
  have eq : (fun e => (V3 m ρ c main_v9 : S32x2048x64.Idx → EReal) (ix3 (⟨n.val * 16 + h.val, by omega⟩ : Fin 32) i e))
      = piece (xin m c) (win m c) (bin m c) 0 n h i := funext fun e => query_at m ρ c n h i e
  have ek : (fun j e => (V3 m ρ c main_v13 : S32x2048x64.Idx → EReal) (ix3 (⟨n.val * 16 + h.val, by omega⟩ : Fin 32) j e))
      = piece (xin m c) (win m c) (bin m c) 1 n h := funext fun j => funext fun e => key_at m ρ c n h j e
  have eu : (fun j e => (V3 m ρ c main_v17 : S32x2048x64.Idx → EReal) (ix3 (⟨n.val * 16 + h.val, by omega⟩ : Fin 32) j e))
      = piece (xin m c) (win m c) (bin m c) 2 n h := funext fun j => funext fun e => value_at m ρ c n h j e
  rw [eq, ek, eu]

/-! ## The merged heads and the output projection -/

theorem v21_eq : V5 m ρ c main_v21 = shapeCast S4096x1024 (transpose S2x2048x16x64 [0, 2, 1, 3]
    (shapeCast S2x16x2048x64 (W4 m ρ c (Proc.devRef .tc main_v18)) shapeCasts_S32x2048x64_S2x16x2048x64)
    transposes_S2x16x2048x64_S2x2048x16x64_0_2_1_3) shapeCasts_S2x2048x16x64_S4096x1024 := by
  show StableHlo.after hostOps2 (W4 m ρ c) (Proc.devRef .tc main_v21) = _
  after_results
  rfl

/-- No host operation and no region up to the attention writes the output bias. -/
theorem arg4_kept : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by
        show StableHlo.after hostOps1 (W2 m ρ c) (Proc.devRef .tc main_arg4) = _
        after_results
    _ = W1 m ρ c (Proc.devRef .tc main_arg4) := W2_of_ne m ρ c main_arg4 (by decide)
    _ = m ((c : Thread nD τ).loc main_arg4) := by
        show StableHlo.after hostOps0 (W0 m ρ c) (Proc.devRef .tc main_arg4) = _
        after_results

theorem v22_eq : V5 m ρ c main_v22 = shapeCast S1x1024 (m ((c : Thread nD τ).loc main_arg4)) shapeCasts_S1024_S1x1024 := by
  rw [← arg4_kept m ρ c]
  show StableHlo.after hostOps2 (W4 m ρ c) (Proc.devRef .tc main_v22) = _
  after_results
  rfl

/-- The output weights reach the last region as launched (their change of format is the identity). -/
theorem v1_eq : (V5 m ρ c main_v1 : S1024x1024.Idx → EReal) = wout m c :=
  calc (W5 m ρ c (Proc.devRef .tc main_v1) : S1024x1024.Idx → EReal)
    _ = W4 m ρ c (Proc.devRef .tc main_v1) := by
        show StableHlo.after hostOps2 (W4 m ρ c) (Proc.devRef .tc main_v1) = _
        after_results
    _ = W3 m ρ c (Proc.devRef .tc main_v1) := W4_of_ne m ρ c main_v1 (by decide)
    _ = W2 m ρ c (Proc.devRef .tc main_v1) := by
        show StableHlo.after hostOps1 (W2 m ρ c) (Proc.devRef .tc main_v1) = _
        after_results
    _ = W1 m ρ c (Proc.devRef .tc main_v1) := W2_of_ne m ρ c main_v1 (by decide)
    _ = wout m c := by
        show StableHlo.after hostOps0 (W0 m ρ c) (Proc.devRef .tc main_v1) = _
        after_results
        rfl

theorem v23_eq : W6 m ρ c (Proc.devRef .tc main_v23) = affine (V5 m ρ c main_v21) (V5 m ρ c main_v1) (V5 m ρ c main_v22) :=
  (W6_arr m ρ c 3).trans (final2 (V5 m ρ) c)

/-- The merged heads at row n·2048 + t, channel k: head k / 64, lane k % 64 of the attention output. -/
theorem merged_at (n : Fin 2) (t : Fin 2048) (k : Fin 1024) :
    (V5 m ρ c main_v21 : S4096x1024.Idx → EReal) (ix2 (⟨n.val * 2048 + t.val, by omega⟩ : Fin 4096) k)
      = mix (xin m c) (win m c) (bin m c) n (headOf k) t (laneOf k) := by
  rw [v21_eq]
  exact (merge_apply (W4 m ρ c (Proc.devRef .tc main_v18) : S32x2048x64.Idx → EReal) shapeCasts_S32x2048x64_S2x16x2048x64
    transposes_S2x16x2048x64_S2x2048x16x64_0_2_1_3 shapeCasts_S2x2048x16x64_S4096x1024 n t k).trans
    (mix_at m ρ c n (headOf k) t (laneOf k))

/-- The output projection's array at row n·2048 + t is the layer's output at (n, t). -/
theorem out_at (n : Fin 2) (t : Fin 2048) (o : Fin 1024) :
    (W6 m ρ c (Proc.devRef .tc main_v23) : S4096x1024.Idx → EReal) (ix2 (⟨n.val * 2048 + t.val, by omega⟩ : Fin 4096) o)
      = outOf (mix (xin m c) (win m c) (bin m c)) (wout m c) (bout m c) n t o := by
  rw [v23_eq, affine_apply, v1_eq, v22_eq]
  unfold outOf
  refine congrArg₂ (· + ·) (Finset.sum_congr rfl fun k _ => congrArg₂ (· * ·) (merged_at m ρ c n t k) rfl) ?_
  exact shapeCast_a_1a_apply (m ((c : Thread nD τ).loc main_arg4)) shapeCasts_S1024_S1x1024 (0 : Fin 1) o

/-! ## The result -/

theorem v24_eq : W7 m ρ c (Proc.devRef .tc main_v24) = shapeCast S2x2048x1024 (W6 m ρ c (Proc.devRef .tc main_v23)) shapeCasts_S4096x1024_S2x2048x1024 := by
  show StableHlo.after hostOps3 (W6 m ρ c) (Proc.devRef .tc main_v24) = _
  after_results
  rfl

/-- THE RESULT BUFFER at the end of the kernel program is the layer's function of the five arguments. -/
theorem result_eq : (W7 m ρ c (Proc.devRef .tc main_v24) : S2x2048x1024.Idx → EReal)
    = result (xin m c) (win m c) (bin m c) (wout m c) (bout m c) := by
  funext i
  obtain ⟨n, t, o, rfl⟩ : ∃ (n : Fin 2) (t : Fin 2048) (o : Fin 1024), i = ix3 n t o := ⟨i 0, i 1, i 2, eq_ix3 i⟩
  rw [v24_eq]
  exact (unrows_apply (W6 m ρ c (Proc.devRef .tc main_v23) : S4096x1024.Idx → EReal) shapeCasts_S4096x1024_S2x2048x1024 n t o).trans
    (out_at m ρ c n t o)

end Cert.KernelIdeal.Final

end
-- ==== Proof.RefFacts.lean ====
/-
  Three small facts about the reference's host constants on the extended reals:
  the scale 1/√64 is the word of 1/8; the word 0xFF800000 is −∞, the least element, so a maximum with it
  changes nothing; the word 0 is the real number 0.
-/
import proofs.«143096_j84997402788178_2_alg».proof.Proof.Attention

noncomputable section

open scoped BigOperators

namespace Cert.ReferenceIdeal.RefValue

open Idealize.ShloMosaic Cert.Attention

/-- The word 0x3F800000 is the real number 1. -/
theorem word_one : Ideal.ofBits .f32 0x3F800000#32 = ((1 : ℝ) : EReal) := by
  simp [Ideal.ofBits, Ideal.ieee, -EReal.coe_mul]; norm_num

/-- The word 0x42800000 is the real number 64. -/
theorem word_sixtyFour : Ideal.ofBits .f32 0x42800000#32 = ((64 : ℝ) : EReal) := by
  simp [Ideal.ofBits, Ideal.ieee, -EReal.coe_mul]; norm_num

/-- The word 0x3E000000 is the real number 1/8. -/
theorem word_eighth : Ideal.ofBits .f32 0x3E000000#32 = ((1 / 8 : ℝ) : EReal) := by
  simp [Ideal.ofBits, Ideal.ieee, -EReal.coe_mul]; norm_num

/-- The word 0xFF800000 is −∞, the least extended real. -/
theorem negInf_eq_bot : negInf = (⊥ : EReal) := by
  simp [negInf, Ideal.ofBits, Ideal.ieee]

/-- √64 = 8. -/
theorem sqrt_sixtyFour : Real.sqrt 64 = 8 := by
  rw [show (64 : ℝ) = 8 ^ 2 by norm_num]
  exact Real.sqrt_sq (by norm_num)

/-- The reference's scale, 1 / √64 computed by the host, is the word of 1/8. -/
theorem scale_eq :
    Ideal.div (Ideal.ofBits .f32 0x3F800000#32) (Ideal.sqrt (Ideal.ofBits .f32 0x42800000#32)) = eighth := by
  rw [word_sixtyFour, Ideal.sqrt_coe, if_neg (by norm_num), sqrt_sixtyFour,
    Ideal.div_coe (by norm_num : (8 : ℝ) ≠ 0), word_one, eighth, word_eighth, ← EReal.coe_mul, one_mul]

/-- A maximum with −∞ on the left changes nothing. -/
theorem max_negInf_left (y : EReal) : max negInf y = y := by
  rw [negInf_eq_bot]; exact max_bot_left y

end Cert.ReferenceIdeal.RefValue

end
-- ==== Proof.RefProj.lean ====
/-
  The reference's fused projection and its three per-head pieces, read coordinate by coordinate:
  stage 3 (matrix product plus bias) is `qkv`, and stages 7, 10, 13 (reshape to [2,2048,3,16,64], slice `s`,
  drop the unit axis, swap tokens and heads) are `piece 0`, `piece 1`, `piece 2`: the column read is
  s·1024 + h·64 + d.
-/
import proofs.«143096_j84997402788178_2_alg».proof.Proof.Gen.ReferenceIdeal.Read
import proofs.«143096_j84997402788178_2_alg».proof.Proof.Attention

noncomputable section

open scoped BigOperators

namespace Cert.ReferenceIdeal.RefValue

open Cert.ReferenceIdeal Cert.ReferenceIdeal.Read Cert.Attention Idealize.ShloMosaic Idealize.ShloMosaic.ValueIdx

variable (x0 : (⟨Cert.ReferenceIdeal.S2x2048x1024, .f32⟩ : BufTy).Contents (Elt Ideal))
  (x1 : (⟨Cert.ReferenceIdeal.S3072x1024, .f32⟩ : BufTy).Contents (Elt Ideal))
  (x2 : (⟨Cert.ReferenceIdeal.S3072, .f32⟩ : BufTy).Contents (Elt Ideal))

/-- Stage 3 at (n, t, o): the fused projection. -/
theorem v3_eq (n : Fin 2) (t : Fin 2048) (o : Fin 3072) :
    val_main_v3 (F := Ideal) x0 x1 x2 (ix3 n t o) = qkv x0 x1 x2 n t o := by
  rw [val_main_v3_apply, val_main_v0_apply, val_main_v2_apply, val_main_v1_apply, Ideal.addf_def]
  unfold qkv
  have eb : idx_main_v1 (idx_main_v2 (ix3 n t o)) = ix1 o :=
    funext fun a => Fin.ext (by match a with | ⟨0, _⟩ => rfl)
  rw [eb]
  refine congrArg (· + x2 (ix1 o)) (Finset.sum_congr rfl fun c _ => ?_)
  have el : lidx_main_v0 (ix3 n t o) c = ix3 n t c :=
    funext fun a => Fin.ext (by match a with | ⟨0, _⟩ => rfl | ⟨1, _⟩ => rfl | ⟨2, _⟩ => rfl)
  have er : ridx_main_v0 (ix3 n t o) c = ix2 o c :=
    funext fun a => Fin.ext (by match a with | ⟨0, _⟩ => rfl | ⟨1, _⟩ => rfl)
  rw [el, er]

/-- Stage 4 at (n, t, s, h, d): the projection's column s·1024 + h·64 + d. -/
theorem v4_eq (n : Fin 2) (t : Fin 2048) (s : Fin 3) (h : Fin 16) (d : Fin 64) :
    val_main_v4 (F := Ideal) x0 x1 x2 (ix5 n t s h d) = qkv x0 x1 x2 n t (col s h d) := by
  rw [val_main_v4_apply]
  have e : idx_main_v4 (ix5 n t s h d) = ix3 n t (col s h d) :=
    funext fun a => Fin.ext (by
      have hn := n.isLt; have ht := t.isLt; have hs := s.isLt; have hh := h.isLt; have hd := d.isLt
      match a with
      | ⟨0, _⟩ => show ((((n.val * 2048 + t.val) * 3 + s.val) * 16 + h.val) * 64 + d.val) / 6291456 = n.val; omega
      | ⟨1, _⟩ => show ((((n.val * 2048 + t.val) * 3 + s.val) * 16 + h.val) * 64 + d.val) / 3072 % 2048 = t.val; omega
      | ⟨2, _⟩ => show ((((n.val * 2048 + t.val) * 3 + s.val) * 16 + h.val) * 64 + d.val) % 3072 = s.val * 1024 + h.val * 64 + d.val; omega)
  rw [e, v3_eq]

/-- Dropping the unit axis: the index of [2,2048,16,64] read in [2,2048,1,16,64]. -/
theorem idx_v6_eq (n : Fin 2) (t : Fin 2048) (h : Fin 16) (d : Fin 64) :
    idx_main_v6 (ix4 n t h d) = ix5 n t (0 : Fin 1) h d :=
  funext fun a => Fin.ext (by
    have hn := n.isLt; have ht := t.isLt; have hh := h.isLt; have hd := d.isLt
    match a with
    | ⟨0, _⟩ => show (((n.val * 2048 + t.val) * 16 + h.val) * 64 + d.val) / 2097152 = n.val; omega
    | ⟨1, _⟩ => show (((n.val * 2048 + t.val) * 16 + h.val) * 64 + d.val) / 1024 % 2048 = t.val; omega
    | ⟨2, _⟩ => rfl
    | ⟨3, _⟩ => show (((n.val * 2048 + t.val) * 16 + h.val) * 64 + d.val) / 64 % 16 = h.val; omega
    | ⟨4, _⟩ => show (((n.val * 2048 + t.val) * 16 + h.val) * 64 + d.val) % 64 = d.val; omega)

/-- Stage 7 at (n, h, t, d): the query piece. -/
theorem v7_eq (n : Fin 2) (h : Fin 16) (t : Fin 2048) (d : Fin 64) :
    val_main_v7 (F := Ideal) x0 x1 x2 (ix4 n h t d) = piece x0 x1 x2 0 n h t d := by
  rw [val_main_v7_apply]
  have e7 : idx_main_v7 (ix4 n h t d) = ix4 n t h d :=
    funext fun a => Fin.ext (by match a with | ⟨0, _⟩ => rfl | ⟨1, _⟩ => rfl | ⟨2, _⟩ => rfl | ⟨3, _⟩ => rfl)
  rw [e7, val_main_v6_apply, idx_v6_eq, val_main_v5_apply]
  have e5 : idx_main_v5 (ix5 n t (0 : Fin 1) h d) = ix5 n t (0 : Fin 3) h d :=
    funext fun a => Fin.ext (by
      match a with | ⟨0, _⟩ => rfl | ⟨1, _⟩ => rfl | ⟨2, _⟩ => rfl | ⟨3, _⟩ => rfl | ⟨4, _⟩ => rfl)
  rw [e5, v4_eq]; rfl

/-- Stage 10 at (n, h, t, d): the key piece. -/
theorem v10_eq (n : Fin 2) (h : Fin 16) (t : Fin 2048) (d : Fin 64) :
    val_main_v10 (F := Ideal) x0 x1 x2 (ix4 n h t d) = piece x0 x1 x2 1 n h t d := by
  rw [val_main_v10_apply]
  have e10 : idx_main_v10 (ix4 n h t d) = ix4 n t h d :=
    funext fun a => Fin.ext (by match a with | ⟨0, _⟩ => rfl | ⟨1, _⟩ => rfl | ⟨2, _⟩ => rfl | ⟨3, _⟩ => rfl)
  have e9 : idx_main_v9 (ix4 n t h d) = ix5 n t (0 : Fin 1) h d := idx_v6_eq n t h d
  rw [e10, val_main_v9_apply, e9, val_main_v8_apply]
  have e8 : idx_main_v8 (ix5 n t (0 : Fin 1) h d) = ix5 n t (1 : Fin 3) h d :=
    funext fun a => Fin.ext (by
      match a with | ⟨0, _⟩ => rfl | ⟨1, _⟩ => rfl | ⟨2, _⟩ => rfl | ⟨3, _⟩ => rfl | ⟨4, _⟩ => rfl)
  rw [e8, v4_eq]; rfl

/-- Stage 13 at (n, h, t, d): the value piece. -/
theorem v13_eq (n : Fin 2) (h : Fin 16) (t : Fin 2048) (d : Fin 64) :
    val_main_v13 (F := Ideal) x0 x1 x2 (ix4 n h t d) = piece x0 x1 x2 2 n h t d := by
  rw [val_main_v13_apply]
  have e13 : idx_main_v13 (ix4 n h t d) = ix4 n t h d :=
    funext fun a => Fin.ext (by match a with | ⟨0, _⟩ => rfl | ⟨1, _⟩ => rfl | ⟨2, _⟩ => rfl | ⟨3, _⟩ => rfl)
  have e12 : idx_main_v12 (ix4 n t h d) = ix5 n t (0 : Fin 1) h d := idx_v6_eq n t h d
  rw [e13, val_main_v12_apply, e12, val_main_v11_apply]
  have e11 : idx_main_v11 (ix5 n t (0 : Fin 1) h d) = ix5 n t (2 : Fin 3) h d :=
    funext fun a => Fin.ext (by
      match a with | ⟨0, _⟩ => rfl | ⟨1, _⟩ => rfl | ⟨2, _⟩ => rfl | ⟨3, _⟩ => rfl | ⟨4, _⟩ => rfl)
  rw [e11, v4_eq]; rfl

end Cert.ReferenceIdeal.RefValue

end
-- ==== Proof.RefSoftmax.lean ====
/-
  The reference's softmax and mixing stages, read coordinate by coordinate:
  stage 18 is the scaled score, stage 21 the greatest score of a query row (a fold of max from −∞ over the keys,
  and a further maximum with −∞, which changes nothing), stage 25 the unnormalised weight, stage 26 the weights'
  total (from the word 0, the real number 0), stage 29 the weight divided by the total, and stage 30 the values
  mixed with the normalised weights: `mix'`.
-/
import proofs.«143096_j84997402788178_2_alg».proof.Proof.RefFacts
import proofs.«143096_j84997402788178_2_alg».proof.Proof.RefProj

noncomputable section

open scoped BigOperators

namespace Cert.ReferenceIdeal.RefValue

open Cert.ReferenceIdeal Cert.ReferenceIdeal.Read Cert.Attention Idealize.ShloMosaic Idealize.ShloMosaic.ValueIdx

variable (x0 : (⟨Cert.ReferenceIdeal.S2x2048x1024, .f32⟩ : BufTy).Contents (Elt Ideal))
  (x1 : (⟨Cert.ReferenceIdeal.S3072x1024, .f32⟩ : BufTy).Contents (Elt Ideal))
  (x2 : (⟨Cert.ReferenceIdeal.S3072, .f32⟩ : BufTy).Contents (Elt Ideal))

/-- Stage 18 at (n, h, i, j): the scaled score of query row i against key row j. -/
theorem v18_eq (n : Fin 2) (h : Fin 16) (i j : Fin 2048) :
    val_main_v18 (F := Ideal) x0 x1 x2 (ix4 n h i j) = score x0 x1 x2 n h i j := by
  rw [val_main_v18_apply, val_main_v16_apply, val_main_v17_apply, val_main_v15_apply, val_main_cst_0_apply,
    val_main_v14_apply, val_main_cst_apply]
  simp only [Ideal.mulf_def, Ideal.hostDivf_def, Ideal.hostUnary_sqrt_def, Ideal.ofBits_def]
  rw [scale_eq]
  unfold score
  refine congrArg (· * eighth) (Finset.sum_congr rfl fun d _ => ?_)
  have el : lidx_main_v16 (ix4 n h i j) d = ix4 n h i d :=
    funext fun a => Fin.ext (by match a with | ⟨0, _⟩ => rfl | ⟨1, _⟩ => rfl | ⟨2, _⟩ => rfl | ⟨3, _⟩ => rfl)
  have er : ridx_main_v16 (ix4 n h i j) d = ix4 n h j d :=
    funext fun a => Fin.ext (by match a with | ⟨0, _⟩ => rfl | ⟨1, _⟩ => rfl | ⟨2, _⟩ => rfl | ⟨3, _⟩ => rfl)
  rw [el, er, v7_eq, v10_eq]

/-- The reduced index (n, h, i) with key coordinate k put back is (n, h, i, k). -/
theorem lift_ix3 (hr : S2x16x2048x2048.Reduces [3] S2x16x2048) (n : Fin 2) (h : Fin 16) (i : Fin 2048)
    (k : Fin (S2x16x2048x2048.size 3)) : hr.lift (ix3 n h i) k = ix4 n h i (⟨k.val, k.isLt⟩ : Fin 2048) := by
  funext c; apply Fin.ext
  fin_cases c <;> rfl

/-- Stage 19 at (n, h, i): the fold of max from −∞ over the keys' scores. -/
theorem v19_eq (n : Fin 2) (h : Fin 16) (i : Fin 2048) :
    val_main_v19 (F := Ideal) x0 x1 x2 (ix3 n h i) = top x0 x1 x2 n h i := by
  have hr : S2x16x2048x2048.Reduces [3] S2x16x2048 := by decide
  unfold val_main_v19
  rw [Host.reduce_eq_fold_single FloatOps.maximumf _ _ Gen.reducesTo_S2x16x2048x2048_S2x16x2048_d3 hr Gen.h_S_]
  have hf : (val_main_v18 (F := Ideal) x0 x1 x2 ∘ hr.lift (ix3 n h i)) = fun j : Fin 2048 => score x0 x1 x2 n h i j :=
    funext fun k => by
      show val_main_v18 (F := Ideal) x0 x1 x2 (hr.lift (ix3 n h i) k) = _
      rw [lift_ix3 hr n h i k, v18_eq]
      rfl
  exact congrArg (fun f => Finset.fold max negInf f (Finset.univ : Finset (Fin 2048))) hf

/-- Stage 21 at (n, h, i): the greatest score of the query row. -/
theorem v21_eq (n : Fin 2) (h : Fin 16) (i : Fin 2048) :
    val_main_v21 (F := Ideal) x0 x1 x2 (ix3 n h i) = top x0 x1 x2 n h i := by
  rw [val_main_v21_apply, val_main_v20_apply, val_main_cst_2_apply, v19_eq]
  simp only [Ideal.maximumf_def, Ideal.ofBits_def]
  exact max_negInf_left _

/-- Stage 25 at (n, h, i, j): the unnormalised weight. -/
theorem v25_eq (n : Fin 2) (h : Fin 16) (i j : Fin 2048) :
    val_main_v25 (F := Ideal) x0 x1 x2 (ix4 n h i j) = weight x0 x1 x2 n h i j := by
  rw [val_main_v25_apply, val_main_v24_apply, val_main_v23_apply, val_main_v22_apply, v18_eq]
  have e : idx_main_v22 (idx_main_v23 (ix4 n h i j)) = ix3 n h i :=
    funext fun a => Fin.ext (by match a with | ⟨0, _⟩ => rfl | ⟨1, _⟩ => rfl | ⟨2, _⟩ => rfl)
  rw [e, v21_eq]
  simp only [Ideal.hostUnary_exp_def, Ideal.subf_def]
  rfl

/-- Stage 26 at (n, h, i): the weights' total over the keys. -/
theorem v26_eq (n : Fin 2) (h : Fin 16) (i : Fin 2048) :
    val_main_v26 (F := Ideal) x0 x1 x2 (ix3 n h i) = mass x0 x1 x2 n h i := by
  rw [val_main_v26_apply, val_main_cst_3_apply]
  simp only [Ideal.ofBits_def, Ideal.ofBits_zero_f32, zero_add]
  unfold mass
  refine Finset.sum_congr rfl fun j _ => ?_
  have e : idx_main_v26 (ix3 n h i) j = ix4 n h i j :=
    funext fun a => Fin.ext (by match a with | ⟨0, _⟩ => rfl | ⟨1, _⟩ => rfl | ⟨2, _⟩ => rfl | ⟨3, _⟩ => rfl)
  rw [e, v25_eq]

/-- Stage 29 at (n, h, i, j): the weight divided by the row's total. -/
theorem v29_eq (n : Fin 2) (h : Fin 16) (i j : Fin 2048) :
    val_main_v29 (F := Ideal) x0 x1 x2 (ix4 n h i j)
      = Ideal.div (weight x0 x1 x2 n h i j) (mass x0 x1 x2 n h i) := by
  rw [val_main_v29_apply, val_main_v28_apply, val_main_v27_apply, v25_eq]
  have e : idx_main_v27 (idx_main_v28 (ix4 n h i j)) = ix3 n h i :=
    funext fun a => Fin.ext (by match a with | ⟨0, _⟩ => rfl | ⟨1, _⟩ => rfl | ⟨2, _⟩ => rfl)
  rw [e, v26_eq, Ideal.hostDivf_def]

/-- Stage 30 at (n, h, i, d): the values mixed with the normalised weights. -/
theorem v30_eq (n : Fin 2) (h : Fin 16) (i : Fin 2048) (d : Fin 64) :
    val_main_v30 (F := Ideal) x0 x1 x2 (ix4 n h i d) = mix' x0 x1 x2 n h i d := by
  rw [val_main_v30_apply]
  unfold mix'
  refine Finset.sum_congr rfl fun j _ => ?_
  have el : lidx_main_v30 (ix4 n h i d) j = ix4 n h i j :=
    funext fun a => Fin.ext (by match a with | ⟨0, _⟩ => rfl | ⟨1, _⟩ => rfl | ⟨2, _⟩ => rfl | ⟨3, _⟩ => rfl)
  have er : ridx_main_v30 (ix4 n h i d) j = ix4 n h j d :=
    funext fun a => Fin.ext (by match a with | ⟨0, _⟩ => rfl | ⟨1, _⟩ => rfl | ⟨2, _⟩ => rfl | ⟨3, _⟩ => rfl)
  rw [el, er, v29_eq, v13_eq]

end Cert.ReferenceIdeal.RefValue

end
-- ==== Proof.RefReads.lean ====
/-
  The reference's result, index by index: the heads are merged back into 1024 channels (stage 32 reads head c / 64,
  lane c % 64 of the mixed values), and the output projection plus bias (stage 36) is `result'`, the layer with
  each weight normalised before the values are mixed.
-/
import proofs.«143096_j84997402788178_2_alg».proof.Proof.RefSoftmax

noncomputable section

open scoped BigOperators

namespace Cert.ReferenceIdeal.RefValue

open Cert.ReferenceIdeal Cert.ReferenceIdeal.Read Cert.Attention Idealize.ShloMosaic Idealize.ShloMosaic.ValueIdx

/-- Stage 32 at (n, t, c): the mixed value of head c / 64 at lane c % 64. -/
theorem v32_eq (x0 : (⟨Cert.ReferenceIdeal.S2x2048x1024, .f32⟩ : BufTy).Contents (Elt Ideal))
    (x1 : (⟨Cert.ReferenceIdeal.S3072x1024, .f32⟩ : BufTy).Contents (Elt Ideal))
    (x2 : (⟨Cert.ReferenceIdeal.S3072, .f32⟩ : BufTy).Contents (Elt Ideal))
    (n : Fin 2) (t : Fin 2048) (c : Fin 1024) :
    val_main_v32 (F := Ideal) x0 x1 x2 (ix3 n t c) = mix' x0 x1 x2 n (headOf c) t (laneOf c) := by
  rw [val_main_v32_apply]
  have e : idx_main_v32 (ix3 n t c) = ix4 n t (headOf c) (laneOf c) :=
    funext fun a => Fin.ext (by
      have hn := n.isLt; have ht := t.isLt; have hc := c.isLt
      match a with
      | ⟨0, _⟩ => show ((n.val * 2048 + t.val) * 1024 + c.val) / 2097152 = n.val; omega
      | ⟨1, _⟩ => show ((n.val * 2048 + t.val) * 1024 + c.val) / 1024 % 2048 = t.val; omega
      | ⟨2, _⟩ => show ((n.val * 2048 + t.val) * 1024 + c.val) / 64 % 16 = c.val / 64; omega
      | ⟨3, _⟩ => show ((n.val * 2048 + t.val) * 1024 + c.val) % 64 = c.val % 64; omega)
  have e31 : idx_main_v31 (ix4 n t (headOf c) (laneOf c)) = ix4 n (headOf c) t (laneOf c) :=
    funext fun a => Fin.ext (by match a with | ⟨0, _⟩ => rfl | ⟨1, _⟩ => rfl | ⟨2, _⟩ => rfl | ⟨3, _⟩ => rfl)
  rw [e, val_main_v31_apply, e31, v30_eq]

/-- The reference's result is the layer with each weight normalised before the values are mixed. -/
theorem result_eq
    (x0 : (⟨Cert.ReferenceIdeal.S2x2048x1024, .f32⟩ : BufTy).Contents (Elt Ideal)) (x1 : (⟨Cert.ReferenceIdeal.S3072x1024, .f32⟩ : BufTy).Contents (Elt Ideal))
    (x2 : (⟨Cert.ReferenceIdeal.S3072, .f32⟩ : BufTy).Contents (Elt Ideal)) (x3 : (⟨Cert.ReferenceIdeal.S1024x1024, .f32⟩ : BufTy).Contents (Elt Ideal))
    (x4 : (⟨Cert.ReferenceIdeal.S1024, .f32⟩ : BufTy).Contents (Elt Ideal)) :
    Cert.ReferenceIdeal.Read.val_main_v36 (F := Ideal) x0 x1 x2 x3 x4 = Cert.Attention.result' x0 x1 x2 x3 x4 := by
  funext i
  obtain ⟨n, t, o, rfl⟩ : ∃ (n : Fin 2) (t : Fin 2048) (o : Fin 1024), i = ix3 n t o := ⟨i 0, i 1, i 2, eq_ix3 i⟩
  show val_main_v36 (F := Ideal) x0 x1 x2 x3 x4 (ix3 n t o) = outOf (mix' x0 x1 x2) x3 x4 n t o
  rw [val_main_v36_apply, val_main_v33_apply, val_main_v35_apply, val_main_v34_apply, Ideal.addf_def]
  unfold outOf
  have eb : idx_main_v34 (idx_main_v35 (ix3 n t o)) = ix1 o :=
    funext fun a => Fin.ext (by match a with | ⟨0, _⟩ => rfl)
  rw [eb]
  refine congrArg (· + x4 (ix1 o)) (Finset.sum_congr rfl fun c _ => ?_)
  have el : lidx_main_v33 (ix3 n t o) c = ix3 n t c :=
    funext fun a => Fin.ext (by match a with | ⟨0, _⟩ => rfl | ⟨1, _⟩ => rfl | ⟨2, _⟩ => rfl)
  have er : ridx_main_v33 (ix3 n t o) c = ix2 o c :=
    funext fun a => Fin.ext (by match a with | ⟨0, _⟩ => rfl | ⟨1, _⟩ => rfl)
  rw [el, er, v32_eq]

end Cert.ReferenceIdeal.RefValue

end
-- ==== Proof.Normalise.lean ====
/-
  Normalising the softmax weights before or after mixing the values gives the same attention output when the three
  projection inputs are real-valued.

  With real inputs every entry of the fused projection is a real number (a finite sum of products of reals plus a
  real), so every score is; the greatest score of a row is a maximum of finitely many reals over a nonempty index
  set, starting from −∞, hence a real; each weight exp (score − top) is a positive real, and the mass, a sum of
  positive reals over a nonempty index set, is a positive real l. Division by l is then multiplication by 1/l, and
  the two arrangements differ by  (Σ_j p_j · v_j) · (1/l) = Σ_j (p_j · (1/l)) · v_j  in ℝ.
-/
import proofs.«143096_j84997402788178_2_alg».proof.Proof.Attention

noncomputable section

open scoped BigOperators

namespace Cert.Attention

open Idealize.ShloMosaic Idealize.ShloMosaic.ValueIdx

namespace Normalise

/-! ### Real-valued extended reals -/

/-- An extended real that is (the coercion of) a real number. -/
def Re (a : EReal) : Prop := ∃ r : ℝ, a = (r : EReal)

theorem Re.coe (r : ℝ) : Re (r : EReal) := ⟨r, rfl⟩

theorem Re.add {a b : EReal} (ha : Re a) (hb : Re b) : Re (a + b) := by
  obtain ⟨r, rfl⟩ := ha; obtain ⟨s, rfl⟩ := hb; exact ⟨r + s, (EReal.coe_add r s).symm⟩

theorem Re.mul {a b : EReal} (ha : Re a) (hb : Re b) : Re (a * b) := by
  obtain ⟨r, rfl⟩ := ha; obtain ⟨s, rfl⟩ := hb; exact ⟨r * s, (EReal.coe_mul r s).symm⟩

theorem Re.sub {a b : EReal} (ha : Re a) (hb : Re b) : Re (a - b) := by
  obtain ⟨r, rfl⟩ := ha; obtain ⟨s, rfl⟩ := hb; exact ⟨r - s, (EReal.coe_sub r s).symm⟩

/-- The coercion ℝ → EReal commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is a real. -/
theorem Re.sum {ι : Type*} (s : Finset ι) {f : ι → EReal} (hf : ∀ i, Re (f i)) : Re (∑ i ∈ s, f i) := by
  choose g hg using hf
  exact ⟨∑ i ∈ s, g i, by rw [coe_sum]; exact Finset.sum_congr rfl (fun i _ => hg i)⟩

/-- The maximum, started from −∞, of finitely many reals over a nonempty index set is a real. -/
theorem fold_max_re {ι : Type*} (s : Finset ι) (g : ι → ℝ) (hs : s.Nonempty) :
    Re (s.fold max (⊥ : EReal) (fun j => (g j : EReal))) := by
  classical
  induction s using Finset.induction_on with
  | empty => exact absurd hs Finset.not_nonempty_empty
  | insert a s ha ih =>
    rw [Finset.fold_insert ha]
    rcases s.eq_empty_or_nonempty with rfl | hne
    · rw [Finset.fold_empty, max_eq_left bot_le]; exact Re.coe _
    · obtain ⟨r, hr⟩ := ih hne
      rw [hr, ← EReal.coe_strictMono.monotone.map_max]; exact Re.coe _

/-! ### The two words -/

theorem negInf_eq : negInf = ⊥ := by simp [negInf, Ideal.ofBits, Ideal.ieee]

theorem eighth_eq : eighth = ((1 / 8 : ℝ) : EReal) := by
  simp [eighth, Ideal.ofBits, Ideal.ieee, -EReal.coe_mul]; norm_num

/-! ### Every quantity of the attention is a real number -/

section
variable (x : (⟨3, ![2, 2048, 1024]⟩ : Shape).Idx → EReal) (w : (⟨2, ![3072, 1024]⟩ : Shape).Idx → EReal)
  (b : (⟨1, ![3072]⟩ : Shape).Idx → EReal) (hx : IsReal x) (hw : IsReal w) (hb : IsReal b)
include hx hw hb

theorem qkv_re (n : Fin 2) (t : Fin 2048) (o : Fin 3072) : Re (qkv x w b n t o) := by
  unfold qkv
  exact Re.add (Re.sum _ fun c => Re.mul (hx _) (hw _)) (hb _)

theorem piece_re (s : Fin 3) (n : Fin 2) (h : Fin 16) (t : Fin 2048) (d : Fin 64) : Re (piece x w b s n h t d) :=
  qkv_re x w b hx hw hb n t (col s h d)

theorem score_re (n : Fin 2) (h : Fin 16) (i j : Fin 2048) : Re (score x w b n h i j) := by
  unfold score
  rw [eighth_eq]
  exact Re.mul (Re.sum _ fun d => Re.mul (piece_re x w b hx hw hb 0 n h i d) (piece_re x w b hx hw hb 1 n h j d))
    (Re.coe _)

theorem top_re (n : Fin 2) (h : Fin 16) (i : Fin 2048) : Re (top x w b n h i) := by
  choose sr hsr using fun j => score_re x w b hx hw hb n h i j
  unfold top
  rw [negInf_eq, show (fun j => score x w b n h i j) = fun j => (sr j : EReal) from funext hsr]
  exact fold_max_re _ sr ⟨⟨0, by decide⟩, Finset.mem_univ _⟩

/-- Each softmax weight is a positive real. -/
theorem weight_pos (n : Fin 2) (h : Fin 16) (i j : Fin 2048) :
    ∃ p : ℝ, 0 < p ∧ weight x w b n h i j = (p : EReal) := by
  obtain ⟨s, hs⟩ := score_re x w b hx hw hb n h i j
  obtain ⟨t, ht⟩ := top_re x w b hx hw hb n h i
  unfold weight
  rw [hs, ht, ← EReal.coe_sub, Ideal.exp_coe]
  exact ⟨Real.exp (s - t), Real.exp_pos _, rfl⟩
end

/-! ### The law -/

/-- Over real numbers, dividing each weight by a nonzero total and then mixing is mixing and then dividing. -/
theorem sum_div_mul {ι : Type*} [Fintype ι] (p v : ι → ℝ) {l : ℝ} (hl : l ≠ 0) :
    ∑ j, Ideal.div (p j : EReal) (l : EReal) * (v j : EReal)
      = Ideal.div (∑ j, (p j : EReal) * (v j : EReal)) (l : EReal) := by
  simp only [Ideal.div_coe hl, ← EReal.coe_mul, ← coe_sum]
  congr 1
  rw [Finset.sum_mul]
  exact Finset.sum_congr rfl fun j _ => by ring

end Normalise

open Normalise

theorem mix'_eq_mix (x : (⟨3, ![2, 2048, 1024]⟩ : Shape).Idx → EReal) (w : (⟨2, ![3072, 1024]⟩ : Shape).Idx → EReal)
    (b : (⟨1, ![3072]⟩ : Shape).Idx → EReal) (hx : IsReal x) (hw : IsReal w) (hb : IsReal b) :
    mix' x w b = mix x w b := by
  funext n h i d
  choose p hp0 hp using fun j => weight_pos x w b hx hw hb n h i j
  choose v hv using fun j => piece_re x w b hx hw hb 2 n h j d
  have hl : (∑ j, p j) ≠ 0 :=
    (Finset.sum_pos (fun j _ => hp0 j) ⟨⟨0, by decide⟩, Finset.mem_univ _⟩).ne'
  have hmass : mass x w b n h i = ((∑ j, p j : ℝ) : EReal) := by
    unfold mass
    rw [coe_sum]
    exact Finset.sum_congr rfl fun j _ => hp j
  unfold mix' mix
  rw [hmass]
  simp only [hp, hv]
  exact sum_div_mul p v hl

theorem result'_eq_result (x : (⟨3, ![2, 2048, 1024]⟩ : Shape).Idx → EReal)
    (w : (⟨2, ![3072, 1024]⟩ : Shape).Idx → EReal) (b : (⟨1, ![3072]⟩ : Shape).Idx → EReal)
    (wo : (⟨2, ![1024, 1024]⟩ : Shape).Idx → EReal) (bo : (⟨1, ![1024]⟩ : Shape).Idx → EReal)
    (hx : IsReal x) (hw : IsReal w) (hb : IsReal b) : result' x w b wo bo = result x w b wo bo := by
  unfold result' result
  rw [mix'_eq_mix x w b hx hw hb]

end Cert.Attention

end
-- ==== Proof.RealInputs.lean ====
/-
  The precondition read back: when `jnp.all(|a| < +∞)` holds of each of the five argument arrays, every entry
  of each array is a real number.

  The precondition computes, array by array, the bit `|a i| < +∞` at every index (the absolute value
  `max (a i) (-(a i))` compared with the word of +∞, which is `⊤` on the extended reals), folds the bits of one
  array by `and` from the bit 1 over all axes, and takes the `and` of the five folds.  The result being 1 gives
  each fold 1, a fold over all axes being 1 gives every bit 1, and `max x (-x) < ⊤` excludes `x = ⊤` (the maximum
  is then `⊤`) and `x = ⊥` (then `-x = ⊤`), which leaves the reals.
-/
import proofs.«143096_j84997402788178_2_alg».proof.Pre_finite_inputs
import proofs.«143096_j84997402788178_2_alg».proof.Proof.Gen.Pre_finite_inputs
import proofs.«143096_j84997402788178_2_alg».proof.Proof.Attention
import Idealize.ShloMosaic.Lib.ReduceAll

namespace Cert.Attention

open Idealize.ShloMosaic Idealize.ShloMosaic.ValueIdx

/-- The word of +∞ at f32 is the top of the extended reals. -/
theorem posInf_eq_top : Ideal.ofBits .f32 0x7F800000#32 = (⊤ : EReal) := by simp [Ideal.ofBits, Ideal.ieee]

/-- An extended real whose absolute value `max x (-x)` is below `⊤` is a real number: for `x = ⊤` the maximum is
    `⊤`, and for `x = ⊥` it is `-⊥ = ⊤`. -/
theorem exists_real_of_abs_lt_top (x : EReal) (h : max x (-x) < ⊤) : ∃ r : ℝ, x = (r : EReal) := by
  induction x using EReal.rec with
  | bot => simp at h
  | coe r => exact ⟨r, rfl⟩
  | top => simp at h

/-- One comparison bit: `|x| < t` being 1 with `t = ⊤` makes `x` a real number. -/
theorem exists_real_of_cmp (x t : EReal) (ht : t = ⊤) (h : Ideal.cmp .olt (max x (-x)) t = 1#1) :
    ∃ r : ℝ, x = (r : EReal) := by
  subst ht
  refine exists_real_of_abs_lt_top x ?_
  have h' : BitVec.ofBool (decide (max x (-x) < ⊤)) = 1#1 := h
  by_contra hn
  rw [decide_eq_false hn] at h'
  exact absurd h' (by decide)

/-- `jnp.all(|a| < +∞)` for one array of any shape: when the fold by `and` over all axes of the bits
    `|a i| < t i`, with every `t i = ⊤`, is 1, every entry of `a` is a real number. -/
theorem isReal_of_all {S T V : Shape} {axes : List (Fin S.rank)} [Subsingleton T.Idx]
    (a t : FVec Ideal S .f32) (ht : ∀ i, t i = (⊤ : EReal))
    (init : V.Idx → BitVec 1) (hr : S.ReducesTo axes T) (hv : 0 < V.numel) (j : T.Idx)
    (e : Host.reduce IntOp.andi (cmpf .olt (Host.absf a) t) init hr hv j = 1#1) : IsReal a := by
  intro i
  have hi : cmpf .olt (Host.absf a) t i = 1#1 := Host.reduce_andi_all _ init hr hv j e i
  exact exists_real_of_cmp (a i) (t i) (ht i) hi

/-- The rank-0 shape has one index. -/
instance : Subsingleton Cert.Pre_finite_inputs.S_.Idx := ⟨fun a b => funext fun d => d.elim0⟩

/-- Under the precondition, each of the five argument arrays is real-valued. -/
theorem isReal_of_pre' [Cert.Pre_finite_inputs.Facts]
    (a0 : FVec Ideal Cert.Pre_finite_inputs.S2x2048x1024 .f32) (a1 : FVec Ideal Cert.Pre_finite_inputs.S3072x1024 .f32)
    (a2 : FVec Ideal Cert.Pre_finite_inputs.S3072 .f32) (a3 : FVec Ideal Cert.Pre_finite_inputs.S1024x1024 .f32)
    (a4 : FVec Ideal Cert.Pre_finite_inputs.S1024 .f32)
    (h : Cert.Pre_finite_inputs.fn (F := Ideal) a0 a1 a2 a3 a4 = fun _ => 1#1) :
    IsReal a0 ∧ IsReal a1 ∧ IsReal a2 ∧ IsReal a3 ∧ IsReal a4 := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨isReal_of_all a0 _ (fun _ => posInf_eq_top) _ _ _ _ e0,
    isReal_of_all a1 _ (fun _ => posInf_eq_top) _ _ _ _ e1,
    isReal_of_all a2 _ (fun _ => posInf_eq_top) _ _ _ _ e2,
    isReal_of_all a3 _ (fun _ => posInf_eq_top) _ _ _ _ e3,
    isReal_of_all a4 _ (fun _ => posInf_eq_top) _ _ _ _ e4⟩

/-- Under the precondition, the input, the fused projection's weights and its bias are real-valued. -/
theorem isReal_of_pre [Cert.Pre_finite_inputs.Facts]
    (a0 : FVec Ideal Cert.Pre_finite_inputs.S2x2048x1024 .f32) (a1 : FVec Ideal Cert.Pre_finite_inputs.S3072x1024 .f32)
    (a2 : FVec Ideal Cert.Pre_finite_inputs.S3072 .f32) (a3 : FVec Ideal Cert.Pre_finite_inputs.S1024x1024 .f32)
    (a4 : FVec Ideal Cert.Pre_finite_inputs.S1024 .f32)
    (h : Cert.Pre_finite_inputs.fn (F := Ideal) a0 a1 a2 a3 a4 = fun _ => 1#1) :
    Cert.Attention.IsReal a0 ∧ Cert.Attention.IsReal a1 ∧ Cert.Attention.IsReal a2 :=
  let ⟨r0, r1, r2, _⟩ := isReal_of_pre' a0 a1 a2 a3 a4 h
  ⟨r0, r1, r2⟩

end Cert.Attention
-- ==== Proof.lean ====
/-
  Fused multi-head self-attention (input projection, attention per head, output projection; three kernel regions with
  re-layouts between them) against the plain einsum/softmax reference, on the extended reals.

  Both programs compute the layer of Proof/Attention.lean. The kernel side: each region's result array is one function
  of the arrays it finds (Proof/KernelBlocks*.lean over the bodies' entries in Proof/KernelEntries.lean and
  Proof/KernelAttention.lean), the re-layouts are re-indexings (Proof/Layout.lean), and the result buffer at the end is
  `Attention.result` of the five arguments (Proof/KernelResult.lean, over the run of Proof/KernelRun.lean). The reference
  side: its composed term is `Attention.result'` (Proof/Ref*.lean). The two differ in ONE place: the kernel divides the
  mixed values by the softmax mass, the reference divides each weight by it before mixing. On the extended reals that is
  an instance of distributing a factor over a sum, which needs every term real: so the precondition is USED — finite
  inputs (Proof/RealInputs.lean) make every projection entry, score, weight and the mass real, the mass positive, and
  the two forms equal (Proof/Normalise.lean). The reference's scale 1/√64 is the kernel's literal 1/8 exactly.

  The ideal pass rewrote nothing, so the idealization claim is `True`. The three frames are the programs' runs.
-/
import proofs.«143096_j84997402788178_2_alg».proof.Defs
import proofs.«143096_j84997402788178_2_alg».proof.Proof.Gen.Kernel
import proofs.«143096_j84997402788178_2_alg».proof.Proof.Gen.Kernel.Skeleton
import proofs.«143096_j84997402788178_2_alg».proof.Proof.Gen.Kernel.Launch
import proofs.«143096_j84997402788178_2_alg».proof.Proof.Gen.Kernel.Points
import proofs.«143096_j84997402788178_2_alg».proof.Proof.Gen.Kernel.Frame
import proofs.«143096_j84997402788178_2_alg».proof.Proof.Gen.KernelIdeal
import proofs.«143096_j84997402788178_2_alg».proof.Proof.Gen.KernelIdeal.Skeleton
import proofs.«143096_j84997402788178_2_alg».proof.Proof.Gen.KernelIdeal.Launch
import proofs.«143096_j84997402788178_2_alg».proof.Proof.Gen.KernelIdeal.Points
import proofs.«143096_j84997402788178_2_alg».proof.Proof.Gen.KernelIdeal.Frame
import proofs.«143096_j84997402788178_2_alg».proof.Proof.Gen.ReferenceIdeal
import proofs.«143096_j84997402788178_2_alg».proof.Proof.Gen.Pre_finite_inputs
import proofs.«143096_j84997402788178_2_alg».proof.Proof.Gen.ReferenceIdeal.Run
import proofs.«143096_j84997402788178_2_alg».proof.Proof.Gen.ReferenceIdeal.Read
import proofs.«143096_j84997402788178_2_alg».proof.Proof.KernelRun
import proofs.«143096_j84997402788178_2_alg».proof.Proof.KernelResult
import proofs.«143096_j84997402788178_2_alg».proof.Proof.RefReads
import proofs.«143096_j84997402788178_2_alg».proof.Proof.Normalise
import proofs.«143096_j84997402788178_2_alg».proof.Proof.RealInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the layer's result of the (agreeing, finite) arguments: the kernel's result buffer is
    `Attention.result`, the reference's is `Attention.result'`, and finite inputs make the two equal. -/
theorem algebraic : Cert.algebraic_KernelIdeal_ReferenceIdeal := by
  intro m ρ m' ρ' hpre hagree
  refine ⟨fun c => Cert.Attention.result (Cert.KernelIdeal.Final.xin m c) (Cert.KernelIdeal.Final.win m c)
    (Cert.KernelIdeal.Final.bin m c) (Cert.KernelIdeal.Final.wout m c) (Cert.KernelIdeal.Final.bout m c), ?_, ?_⟩
  · exact (θ_run Cert.KernelIdeal.defs _ _).mono
      (fun r h c => ⟨(h c).1.trans (Cert.KernelIdeal.Final.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨hx, hw, hb⟩ := Cert.Attention.isReal_of_pre _ _ _ _ _ (hpre c)
    rw [Cert.ReferenceIdeal.Read.val_main_v36_eq, Cert.ReferenceIdeal.RefValue.result_eq,
      (hagree c).1, (hagree c).2.1, (hagree c).2.2.1, (hagree c).2.2.2.1, (hagree c).2.2.2.2]
    exact Cert.Attention.result'_eq_result _ _ _ _ _ hx hw hb

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
